-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x64 .f32) (main_arg15 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S128 .f32) (main_arg10 : FVec F S128x64 .f32) (main_arg11 : FVec F S64 .f32) (main_arg12 : FVec F S128x128 .f32) (main_arg13 : FVec F S128 .f32) (main_arg14 : FVec F S128x64 .f32) (main_arg15 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128x64 .f32) (main_arg7 : FVec F S64 .f32) (main_arg8 : FVec F S192x128 .f32) (main_arg9 : FVec F S128 .f32) (main_arg10 : FVec F S128x64 .f32) (main_arg11 : FVec F S64 .f32) (main_arg12 : FVec F S128x128 .f32) (main_arg13 : FVec F S128 .f32) (main_arg14 : FVec F S128x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x128 .f32 := Host.absf main_arg8
  let main_cst_10 : FVec F S_ .f32 := constant S_ .f32 0x7F800000#32
  let main_v30 : FVec F S192x128 .f32 := broadcastInDim S192x128 ![] bcast_S_S192x128 main_cst_10
  let main_v31 : IVec S192x128 1 := cmpf .olt main_v29 main_v30
  let main_c_11 : IVec S_ 1 := constantI S_ 1 1#1
  let main_v32 : IVec S_ 1 := (fun x v => Host.reduce IntOp.andi x v reducesTo_S192x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : FVec F S800000x64 .f32) (main_arg2 : IVec S800000 32) (main_arg3 : IVec S800000 32) (main_arg4 : FVec F S192x128 .f32) (main_arg5 : FVec F S128 .f32) (main_arg6 : FVec F S128x64 .f32) (main_arg7 : FVec F S64 .f32) (main_arg8 : FVec F S192x128 .f32) (main_arg9 : FVec F S128 .f32) (main_arg10 : FVec F S128x64 .f32) (main_arg11 : FVec F S64 .f32) (main_arg12 : FVec F S128x128 .f32) (main_arg13 : FVec F S128 .f32) (main_arg14 : FVec F S128x64 .f32) (main_arg15 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩
abbrev S800000x1 : Shape := ⟨2, ![800000, 1]⟩
abbrev S1x128 : Shape := ⟨2, ![1, 128]⟩
abbrev S1x64 : Shape := ⟨2, ![1, 64]⟩
abbrev S4000x64 : Shape := ⟨2, ![4000, 64]⟩
abbrev S4000x192 : Shape := ⟨2, ![4000, 192]⟩
abbrev S4000x128 : Shape := ⟨2, ![4000, 128]⟩
abbrev S5000x64 : Shape := ⟨2, ![5000, 64]⟩
abbrev S5000x128 : Shape := ⟨2, ![5000, 128]⟩

abbrev nBuf : Space → Nat
  | .hbm => 46
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S1x128, .f32⟩
  | .hbm, ⟨35, _⟩ => ⟨S1x64, .f32⟩
  | .hbm, ⟨36, _⟩ => ⟨S1x128, .f32⟩
  | .hbm, ⟨37, _⟩ => ⟨S1x64, .f32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S1x128, .f32⟩
  | .hbm, ⟨44, _⟩ => ⟨S1x64, .f32⟩
  | .hbm, ⟨45, _⟩ => ⟨S50000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S192x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S192x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S128x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  concatenates_S4000x64_S4000x64_S4000x64_S4000x192_d1 : Shape.Concatenates [S4000x64, S4000x64, S4000x64] S4000x192 1
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x128_S128x128_0_0 : ∀ a, (![0, 0] : Fin 2 → Nat) a + S128x128.size a ≤ S128x128.size a
  h_S128x128 : 0 < S128x128.numel
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S4000x192_S192x128_S4000x128_1_0_0_1_n_n_wf : DotDims.WF S4000x192 S192x128 S4000x128 [1] [0] [0] [1] [] []
  dot_S4000x128_S128x64_S4000x64_1_0_0_1_n_n_wf : DotDims.WF S4000x128 S128x64 S4000x64 [1] [0] [0] [1] [] []
  scatter_S50000x64_S800000x1_S800000x64_1_0_0_1_wf : ScatterDims.WF S50000x64 S800000x1 S800000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S800000x64.size a
  hwx0_2 : ∀ i : grid0.Coords, EltTy.bits .f32 = 32 ∨ (Rect.block (s := S800000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .f32 = 32 ∨ (Rect.block (s := S192x128) S192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x128.size a ≤ S192x128.size a
  hwx0_7 : ∀ i : grid0.Coords, EltTy.bits .f32 = 32 ∨ (Rect.block (s := S192x128) S192x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x64.size a ≤ S800000x64.size a
  hwx0_11 : ∀ i : grid0.Coords, EltTy.bits .f32 = 32 ∨ (Rect.block (s := S800000x64) S4000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x192_S192x128_S4000x128_1_0_0_1_n_n : DotDims S4000x192 S192x128 S4000x128 where
  lhsContracting := [1]
  rhsContracting := [0]
  lhsNonContracting := [0]
  rhsNonContracting := [1]
  lhsBatch := []
  rhsBatch := []
  wf := dot_S4000x192_S192x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v6) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S192x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S4000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 82
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x192, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x64, .f32⟩
  | .hbm, ⟨43, _⟩ => ⟨S1x64, .f32⟩
  | .hbm, ⟨44, _⟩ => ⟨S800000x64, .f32⟩
  | .hbm, ⟨45, _⟩ => ⟨S800000x64, .f32⟩
  | .hbm, ⟨46, _⟩ => ⟨S800000x128, .f32⟩
  | .hbm, ⟨47, _⟩ => ⟨S1x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S800000x128, .f32⟩
  | .hbm, ⟨52, _⟩ => ⟨S800000x128, .f32⟩
  | .hbm, ⟨53, _⟩ => ⟨S800000x64, .f32⟩
  | .hbm, ⟨54, _⟩ => ⟨S1x64, .f32⟩
  | .hbm, ⟨55, _⟩ => ⟨S800000x64, .f32⟩
  | .hbm, ⟨56, _⟩ => ⟨S800000x64, .f32⟩
  | .hbm, ⟨57, _⟩ => ⟨S800000x64, .f32⟩
  | .hbm, ⟨58, _⟩ => ⟨S800000x64, .f32⟩
  | .hbm, ⟨59, _⟩ => ⟨S_, .f32⟩
  | .hbm, ⟨60, _⟩ => ⟨S800000x64, .f32⟩
  | .hbm, ⟨61, _⟩ => ⟨S800000x64, .f32⟩
  | .hbm, ⟨62, _⟩ => ⟨S_, .f32⟩
  | .hbm, ⟨63, _⟩ => ⟨S800000x64, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_cst : Ref sig .tc := ⟨.hbm, 50, rfl⟩
abbrev main_call1_v0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call2_cst : Ref sig .tc := ⟨.hbm, 75, rfl⟩
abbrev main_call2_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.LibRowPerceptron.lean ====
/-
  A two-layer perceptron, read one row at a time on the extended reals.

  The output row p of   relu (x · W₁ + b₁) · W₂ + b₂   depends on row p of x only:

      out (p, u) = Σ_k  max (Σ_j x (p, j) · W₁ (j, k) + b₁ k) 0 · W₂ (k, u)  +  b₂ u .

  Two spellings of that array are read at an entry and found to be this expression: the one a kernel forms (two
  products into the zero accumulator with the operands' formats narrowed on the way, the biases kept as 1 × n rows
  and repeated down the rows, the zero of the maximum a scalar repeated), and the one a host program forms (two
  general dot products, each bias taken from a vector to a 1 × n row and then down the rows, the zero a scalar array
  repeated).  On the extended reals a change of format is the identity and both products are the plain finite sum,
  so the two spellings agree entry by entry, on arrays of any number of rows.

  Beside it: arrays of 64 columns set side by side along the columns, read at a column as the piece the column
  falls in; and the host's  1 / (1 + exp (−y))  read at an entry as the logistic function of the entry.

  Nothing here knows a program.
-/
import Idealize.ShloMosaic.Lib.ValueIdx
import Idealize.ShloMosaic.Lib.Pipeline.Value
import Idealize.ShloMosaic.Lib.IdealHost
import Idealize.ShloMosaic.PureOps.Ideal.Laws
import proofs.«147378_j91285234909505_1_alg».proof.Proof.LibRowsProduct

noncomputable section

open scoped BigOperators

namespace Cert.RowPerceptron

open Idealize.ShloMosaic Idealize.ShloMosaic.ValueIdx

/-! ## Arrays of 64 columns set side by side -/

section Pieces

variable {α : Type}

/-- Column j of two 64-column rows set side by side. -/
def pick2 (x0 x1 : Fin 64 → α) (j : Fin 128) : α :=
  if h : j.val < 64 then x0 ⟨j.val, h⟩ else x1 ⟨j.val - 64, by have := j.isLt; omega⟩

/-- Column j of three 64-column rows set side by side. -/
def pick3 (x0 x1 x2 : Fin 64 → α) (j : Fin 192) : α :=
  if h : j.val < 64 then x0 ⟨j.val, h⟩
  else if h' : j.val < 128 then x1 ⟨j.val - 64, by omega⟩
  else x2 ⟨j.val - 128, by have := j.isLt; omega⟩

/-- Two a × 64 arrays joined along the columns: entry (r, j) is column j of the two rows r set side by side. -/
theorem concat2_apply {a : ℕ} (x0 x1 : (⟨2, ![a, 64]⟩ : Shape).Idx → α)
    (h : Shape.Concatenates (([⟨⟨2, ![a, 64]⟩, x0⟩, ⟨⟨2, ![a, 64]⟩, x1⟩] :
      List ((s : Shape) × (s.Idx → α))).map (·.1)) ⟨2, ![a, 128]⟩ 1)
    (r : Fin a) (j : Fin 128) :
    concatenate ⟨2, ![a, 128]⟩ 1 [⟨⟨2, ![a, 64]⟩, x0⟩, ⟨⟨2, ![a, 64]⟩, x1⟩] h (ix2 r j)
      = pick2 (fun q => x0 (ix2 r q)) (fun q => x1 (ix2 r q)) j := by
  unfold pick2
  by_cases hj : j.val < 64
  · rw [dif_pos hj]
    refine concatenate_apply_piece 1 _ h (ix2 r j) 0 (by show 0 < 2; omega) ⟨2, ![a, 64]⟩ x0 rfl rfl 0 rfl
      (ix2 r ⟨j.val, hj⟩) ?_ ?_
    · intro ax hax
      match ax with
      | ⟨0, _⟩ => rfl
      | ⟨1, _⟩ => exact absurd rfl hax
    · show 0 + j.val = j.val
      omega
  · rw [dif_neg hj]
    refine concatenate_apply_piece 1 _ h (ix2 r j) 1 (by show 1 < 2; omega) ⟨2, ![a, 64]⟩ x1 rfl rfl 64 rfl
      (ix2 r ⟨j.val - 64, by have := j.isLt; omega⟩) ?_ ?_
    · intro ax hax
      match ax with
      | ⟨0, _⟩ => rfl
      | ⟨1, _⟩ => exact absurd rfl hax
    · show 64 + (j.val - 64) = j.val
      omega

/-- Three a × 64 arrays joined along the columns: entry (r, j) is column j of the three rows r set side by side. -/
theorem concat3_apply {a : ℕ} (x0 x1 x2 : (⟨2, ![a, 64]⟩ : Shape).Idx → α)
    (h : Shape.Concatenates (([⟨⟨2, ![a, 64]⟩, x0⟩, ⟨⟨2, ![a, 64]⟩, x1⟩, ⟨⟨2, ![a, 64]⟩, x2⟩] :
      List ((s : Shape) × (s.Idx → α))).map (·.1)) ⟨2, ![a, 192]⟩ 1)
    (r : Fin a) (j : Fin 192) :
    concatenate ⟨2, ![a, 192]⟩ 1 [⟨⟨2, ![a, 64]⟩, x0⟩, ⟨⟨2, ![a, 64]⟩, x1⟩, ⟨⟨2, ![a, 64]⟩, x2⟩] h (ix2 r j)
      = pick3 (fun q => x0 (ix2 r q)) (fun q => x1 (ix2 r q)) (fun q => x2 (ix2 r q)) j := by
  unfold pick3
  by_cases hj : j.val < 64
  · rw [dif_pos hj]
    refine concatenate_apply_piece 1 _ h (ix2 r j) 0 (by show 0 < 3; omega) ⟨2, ![a, 64]⟩ x0 rfl rfl 0 rfl
      (ix2 r ⟨j.val, hj⟩) ?_ ?_
    · intro ax hax
      match ax with
      | ⟨0, _⟩ => rfl
      | ⟨1, _⟩ => exact absurd rfl hax
    · show 0 + j.val = j.val
      omega
  · rw [dif_neg hj]
    by_cases hj' : j.val < 128
    · rw [dif_pos hj']
      refine concatenate_apply_piece 1 _ h (ix2 r j) 1 (by show 1 < 3; omega) ⟨2, ![a, 64]⟩ x1 rfl rfl 64 rfl
        (ix2 r ⟨j.val - 64, by omega⟩) ?_ ?_
      · intro ax hax
        match ax with
        | ⟨0, _⟩ => rfl
        | ⟨1, _⟩ => exact absurd rfl hax
      · show 64 + (j.val - 64) = j.val
        omega
    · rw [dif_neg hj']
      refine concatenate_apply_piece 1 _ h (ix2 r j) 2 (by show 2 < 3; omega) ⟨2, ![a, 64]⟩ x2 rfl rfl 128 rfl
        (ix2 r ⟨j.val - 128, by have := j.isLt; omega⟩) ?_ ?_
      · intro ax hax
        match ax with
        | ⟨0, _⟩ => rfl
        | ⟨1, _⟩ => exact absurd rfl hax
      · show 128 + (j.val - 128) = j.val
        omega

end Pieces

/-! ## The perceptron at an entry -/

variable {a K H O : ℕ}

/-- relu (x · W₁ + b₁) · W₂ + b₂ at column u, from one row x of the input. -/
def mlp (x : Fin K → EReal) (W1 : (⟨2, ![K, H]⟩ : Shape).Idx → EReal) (b1 : Fin H → EReal)
    (W2 : (⟨2, ![H, O]⟩ : Shape).Idx → EReal) (b2 : Fin O → EReal) (u : Fin O) : EReal :=
  (∑ k : Fin H, max ((∑ j : Fin K, x j * W1 (ix2 j k)) + b1 k) (Ideal.ofBits .f32 0x00000000#32) * W2 (ix2 k u)) + b2 u

/-- A 1 × n row, cast to its own shape and repeated down a rows, reads at (p, u) the row's entry u. -/
theorem rowBias_apply {α : Type} {n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (u : Fin n) :
    broadcastTo ⟨2, ![a, n]⟩ (shapeCast ⟨2, ![1, n]⟩ v hc) hb (ix2 p u) = v (ix2 (0 : Fin 1) u) := by
  rw [shapeCast_self]
  refine broadcastTo_apply v hb (ix2 p u) (ix2 (0 : Fin 1) u) fun ax => ?_
  match ax with
  | ⟨0, _⟩ => rfl
  | ⟨1, _⟩ =>
    show u.val = if n = 1 then 0 else u.val
    split
    · have := u.isLt; omega
    · rfl

/-- A vector of n numbers taken to a 1 × n row and then repeated down a rows reads at (p, u) the vector's entry u. -/
theorem vecBias_apply {α : Type} {n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1])
    (p : Fin a) (u : Fin n) :
    broadcastInDim ⟨2, ![a, n]⟩ ![0, 1] h2 (broadcastInDim ⟨2, ![1, n]⟩ ![1] h1 v) (ix2 p u) = v (ix1 u) := by
  rw [broadcastInDim_apply ![0, 1] h2 _ (ix2 p u) (ix2 (0 : Fin 1) u) (fun ax => by
    match ax with
    | ⟨0, _⟩ => rfl
    | ⟨1, _⟩ =>
      show u.val = if n = 1 then 0 else u.val
      split
      · have := u.isLt; omega
      · rfl)]
  refine broadcastInDim_apply ![1] h1 v (ix2 (0 : Fin 1) u) (ix1 u) fun ax => ?_
  match ax with
  | ⟨0, _⟩ =>
    show u.val = if n = 1 then 0 else u.val
    split
    · have := u.isLt; omega
    · rfl

/-- The kernel's spelling, at entry (p, u), is the perceptron of row p. -/
theorem kernel_mlp_apply {φx φ1 φ2 : FTy}
    (D1 : DotDims ⟨2, ![a, K]⟩ ⟨2, ![K, H]⟩ ⟨2, ![a, H]⟩) (D2 : DotDims ⟨2, ![a, H]⟩ ⟨2, ![H, O]⟩ ⟨2, ![a, O]⟩)
    (h1r : D1.contr.rank = 1) (h1s : D1.contr.size ⟨0, by omega⟩ = K)
    (h1l0 : ∀ j q, (D1.lhsIdx j q 0).val = (j 0).val) (h1l1 : ∀ j q, (D1.lhsIdx j q 1).val = (q ⟨0, by omega⟩).val)
    (h1r0 : ∀ j q, (D1.rhsIdx j q 0).val = (q ⟨0, by omega⟩).val) (h1r1 : ∀ j q, (D1.rhsIdx j q 1).val = (j 1).val)
    (h2r : D2.contr.rank = 1) (h2s : D2.contr.size ⟨0, by omega⟩ = H)
    (h2l0 : ∀ j q, (D2.lhsIdx j q 0).val = (j 0).val) (h2l1 : ∀ j q, (D2.lhsIdx j q 1).val = (q ⟨0, by omega⟩).val)
    (h2r0 : ∀ j q, (D2.rhsIdx j q 0).val = (q ⟨0, by omega⟩).val) (h2r1 : ∀ j q, (D2.rhsIdx j q 1).val = (j 1).val)
    (x : FVec Ideal ⟨2, ![a, K]⟩ φx) (W1 : FVec Ideal ⟨2, ![K, H]⟩ φ1) (W2 : FVec Ideal ⟨2, ![H, O]⟩ φ2)
    (b1 : FVec Ideal ⟨2, ![1, H]⟩ .f32) (b2 : FVec Ideal ⟨2, ![1, O]⟩ .f32)
    (hc1 : (⟨2, ![1, H]⟩ : Shape).ShapeCasts ⟨2, ![1, H]⟩) (hb1 : (⟨2, ![1, H]⟩ : Shape).Broadcasts ⟨2, ![a, H]⟩)
    (hc2 : (⟨2, ![1, O]⟩ : Shape).ShapeCasts ⟨2, ![1, O]⟩) (hb2 : (⟨2, ![1, O]⟩ : Shape).Broadcasts ⟨2, ![a, O]⟩)
    (hlt : (FTy.bf16).bits < (FTy.f32).bits) (p : Fin a) (u : Fin O) :
    addf (matmul D2 none
          (truncf .bf16 (maximumf (addf (matmul D1 none x W1 (constant ⟨2, ![a, H]⟩ .f32 0x00000000#32))
              (broadcastTo ⟨2, ![a, H]⟩ (shapeCast ⟨2, ![1, H]⟩ b1 hc1) hb1))
            (broadcast ⟨2, ![a, H]⟩ (Scalar.ofBits (F := Ideal) .f32 0x00000000#32))) hlt)
          W2 (constant ⟨2, ![a, O]⟩ .f32 0x00000000#32))
        (broadcastTo ⟨2, ![a, O]⟩ (shapeCast ⟨2, ![1, O]⟩ b2 hc2) hb2) (ix2 p u)
      = mlp (fun j => x (ix2 p j)) W1 (fun k => b1 (ix2 (0 : Fin 1) k)) W2 (fun v => b2 (ix2 (0 : Fin 1) v)) u := by
  show FloatOps.matmul D2 none _ W2 (constant ⟨2, ![a, O]⟩ .f32 0x00000000#32) (ix2 p u)
      + broadcastTo ⟨2, ![a, O]⟩ (shapeCast ⟨2, ![1, O]⟩ b2 hc2) hb2 (ix2 p u) = _
  rw [Cert.RowsProduct.matmul_zero_rows_apply D2 none h2r h2s h2l0 h2l1 h2r0 h2r1, rowBias_apply]
  unfold mlp
  refine congrArg (· + b2 (ix2 (0 : Fin 1) u)) (Finset.sum_congr rfl fun k _ => ?_)
  show max (FloatOps.matmul D1 none x W1 (constant ⟨2, ![a, H]⟩ .f32 0x00000000#32) (ix2 p k)
      + broadcastTo ⟨2, ![a, H]⟩ (shapeCast ⟨2, ![1, H]⟩ b1 hc1) hb1 (ix2 p k)) (Ideal.ofBits .f32 0x00000000#32) * W2 (ix2 k u) = _
  rw [Cert.RowsProduct.matmul_zero_rows_apply D1 none h1r h1s h1l0 h1l1 h1r0 h1r1, rowBias_apply]

/-- The host's spelling, at entry (p, u), is the perceptron of row p. -/
theorem host_mlp_apply {φx φ1 φ2 : FTy}
    (D1 : DotDims ⟨2, ![a, K]⟩ ⟨2, ![K, H]⟩ ⟨2, ![a, H]⟩) (D2 : DotDims ⟨2, ![a, H]⟩ ⟨2, ![H, O]⟩ ⟨2, ![a, O]⟩)
    (h1r : D1.contr.rank = 1) (h1s : D1.contr.size ⟨0, by omega⟩ = K)
    (h1l0 : ∀ j q, (D1.lhsIdx j q 0).val = (j 0).val) (h1l1 : ∀ j q, (D1.lhsIdx j q 1).val = (q ⟨0, by omega⟩).val)
    (h1r0 : ∀ j q, (D1.rhsIdx j q 0).val = (q ⟨0, by omega⟩).val) (h1r1 : ∀ j q, (D1.rhsIdx j q 1).val = (j 1).val)
    (h2r : D2.contr.rank = 1) (h2s : D2.contr.size ⟨0, by omega⟩ = H)
    (h2l0 : ∀ j q, (D2.lhsIdx j q 0).val = (j 0).val) (h2l1 : ∀ j q, (D2.lhsIdx j q 1).val = (q ⟨0, by omega⟩).val)
    (h2r0 : ∀ j q, (D2.rhsIdx j q 0).val = (q ⟨0, by omega⟩).val) (h2r1 : ∀ j q, (D2.rhsIdx j q 1).val = (j 1).val)
    (x : FVec Ideal ⟨2, ![a, K]⟩ φx) (W1 : FVec Ideal ⟨2, ![K, H]⟩ φ1) (W2 : FVec Ideal ⟨2, ![H, O]⟩ φ2)
    (b1 : FVec Ideal ⟨1, ![H]⟩ .f32) (b2 : FVec Ideal ⟨1, ![O]⟩ .f32)
    (hv1 : (⟨1, ![H]⟩ : Shape).BroadcastsInDim ⟨2, ![1, H]⟩ ![1])
    (hw1 : (⟨2, ![1, H]⟩ : Shape).BroadcastsInDim ⟨2, ![a, H]⟩ ![0, 1])
    (hv2 : (⟨1, ![O]⟩ : Shape).BroadcastsInDim ⟨2, ![1, O]⟩ ![1])
    (hw2 : (⟨2, ![1, O]⟩ : Shape).BroadcastsInDim ⟨2, ![a, O]⟩ ![0, 1])
    (hz : (⟨0, ![]⟩ : Shape).BroadcastsInDim ⟨2, ![a, H]⟩ ![]) (p : Fin a) (u : Fin O) :
    addf (Host.dotGeneral D2 none
          (maximumf (addf (Host.dotGeneral D1 none x W1)
              (broadcastInDim ⟨2, ![a, H]⟩ ![0, 1] hw1 (broadcastInDim ⟨2, ![1, H]⟩ ![1] hv1 b1)))
            (broadcastInDim ⟨2, ![a, H]⟩ ![] hz (constant (F := Ideal) ⟨0, ![]⟩ .f32 0x00000000#32)))
          W2)
        (broadcastInDim ⟨2, ![a, O]⟩ ![0, 1] hw2 (broadcastInDim ⟨2, ![1, O]⟩ ![1] hv2 b2)) (ix2 p u)
      = mlp (fun j => x (ix2 p j)) W1 (fun k => b1 (ix1 k)) W2 (fun v => b2 (ix1 v)) u := by
  show FloatOps.dotGeneral D2 none .single _ W2 (ix2 p u)
      + broadcastInDim ⟨2, ![a, O]⟩ ![0, 1] hw2 (broadcastInDim ⟨2, ![1, O]⟩ ![1] hv2 b2) (ix2 p u) = _
  rw [Cert.RowsProduct.dotGeneral_rows_apply D2 none .single h2r h2s h2l0 h2l1 h2r0 h2r1, vecBias_apply]
  unfold mlp
  refine congrArg (· + b2 (ix1 u)) (Finset.sum_congr rfl fun k _ => ?_)
  show max (FloatOps.dotGeneral D1 none .single x W1 (ix2 p k)
      + broadcastInDim ⟨2, ![a, H]⟩ ![0, 1] hw1 (broadcastInDim ⟨2, ![1, H]⟩ ![1] hv1 b1) (ix2 p k))
      (broadcastInDim ⟨2, ![a, H]⟩ ![] hz (constant (F := Ideal) ⟨0, ![]⟩ .f32 0x00000000#32) (ix2 p k)) * W2 (ix2 k u) = _
  rw [Cert.RowsProduct.dotGeneral_rows_apply D1 none .single h1r h1s h1l0 h1l1 h1r0 h1r1, vecBias_apply,
    broadcastInDim_scalar_apply]
  rfl

/-! ## The logistic function, spelt out on the host -/

/-- 1 / (1 + exp (−y)), the ones scalar arrays repeated, is at each entry the logistic function of the entry. -/
theorem host_logistic_apply {s : Shape} (h1 h2 : (⟨0, ![]⟩ : Shape).BroadcastsInDim s ![])
    (y : FVec Ideal s .f32) (i : s.Idx) :
    Host.divf (broadcastInDim s ![] h1 (constant (F := Ideal) ⟨0, ![]⟩ .f32 0x3F800000#32))
        (addf (broadcastInDim s ![] h2 (constant (F := Ideal) ⟨0, ![]⟩ .f32 0x3F800000#32)) (Host.exp (Host.negf y))) i
      = Ideal.logistic (y i) := by
  show Ideal.div (broadcastInDim s ![] h1 (constant (F := Ideal) ⟨0, ![]⟩ .f32 0x3F800000#32) i)
      (broadcastInDim s ![] h2 (constant (F := Ideal) ⟨0, ![]⟩ .f32 0x3F800000#32) i + Ideal.exp (-(y i))) = _
  simp only [broadcastInDim_scalar_apply]
  show Ideal.div (Ideal.ofBits .f32 0x3F800000#32) (Ideal.ofBits .f32 0x3F800000#32 + Ideal.exp (-(y i))) = _
  rw [Ideal.ofBits_one_f32]
  rfl

end Cert.RowPerceptron

end
-- ==== Proof.Spec.lean ====
/-
  What one round of message passing computes, entry by entry on the extended reals.

  Edge r carries the row  [ nf[src r] | nf[dst r] | ef r ]  of 192 numbers.  Two perceptrons read that row: the
  message perceptron (We1, be1, We2, be2) and the gate perceptron (Wa1, ba1, Wa2, ba2).  The updated edge feature is
  the logistic function of the gate times the message, column by column.

  Node r carries the row  [ agg r | nf r ]  of 128 numbers, agg r the sum of the updated features of the edges that
  end at r.  The node perceptron (Wn1, bn1, Wn2, bn2) reads that row: the updated node feature.

  Both are stated over the gathered arrays and the aggregated array as given: how a gather or a scatter-add reads
  its index operand plays no part, since both programs gather and scatter in the same way.
-/
import proofs.«147378_j91285234909505_1_alg».proof.Proof.LibRowPerceptron

noncomputable section

open scoped BigOperators

namespace Cert.Mpnn

open Idealize.ShloMosaic Idealize.ShloMosaic.ValueIdx Cert.RowPerceptron

/-- An edge array: 800000 rows of 64. -/
abbrev ArrE := (⟨2, ![800000, 64]⟩ : Shape).Idx → EReal
/-- A node array: 50000 rows of 64. -/
abbrev ArrN := (⟨2, ![50000, 64]⟩ : Shape).Idx → EReal
abbrev W192x128 := (⟨2, ![192, 128]⟩ : Shape).Idx → EReal
abbrev W128x128 := (⟨2, ![128, 128]⟩ : Shape).Idx → EReal
abbrev W128x64 := (⟨2, ![128, 64]⟩ : Shape).Idx → EReal

/-- The 192 numbers edge r carries: source features, destination features, edge features. -/
def edgeRow (g1 g2 ef : ArrE) (r : Fin 800000) : Fin 192 → EReal :=
  pick3 (fun q => g1 (ix2 r q)) (fun q => g2 (ix2 r q)) (fun q => ef (ix2 r q))

/-- The updated feature of edge r at column u: gate times message. -/
def edgeEntry (g1 g2 ef : ArrE) (We1 : W192x128) (be1 : Fin 128 → EReal) (We2 : W128x64) (be2 : Fin 64 → EReal)
    (Wa1 : W192x128) (ba1 : Fin 128 → EReal) (Wa2 : W128x64) (ba2 : Fin 64 → EReal) (r : Fin 800000) (u : Fin 64) : EReal :=
  Ideal.logistic (mlp (edgeRow g1 g2 ef r) Wa1 ba1 Wa2 ba2 u) * mlp (edgeRow g1 g2 ef r) We1 be1 We2 be2 u

/-- The updated edge features as one array. -/
def edgeMsg (g1 g2 ef : ArrE) (We1 : W192x128) (be1 : Fin 128 → EReal) (We2 : W128x64) (be2 : Fin 64 → EReal)
    (Wa1 : W192x128) (ba1 : Fin 128 → EReal) (Wa2 : W128x64) (ba2 : Fin 64 → EReal) : ArrE :=
  fun i => edgeEntry g1 g2 ef We1 be1 We2 be2 Wa1 ba1 Wa2 ba2 (i 0) (i 1)

/-- The 128 numbers node r carries: aggregated messages, node features. -/
def nodeRow (agg nf : ArrN) (r : Fin 50000) : Fin 128 → EReal :=
  pick2 (fun q => agg (ix2 r q)) (fun q => nf (ix2 r q))

/-- The updated feature of node r at column u. -/
def nodeEntry (agg nf : ArrN) (Wn1 : W128x128) (bn1 : Fin 128 → EReal) (Wn2 : W128x64) (bn2 : Fin 64 → EReal)
    (r : Fin 50000) (u : Fin 64) : EReal :=
  mlp (nodeRow agg nf r) Wn1 bn1 Wn2 bn2 u

/-- The updated node features as one array. -/
def nodeOut (agg nf : ArrN) (Wn1 : W128x128) (bn1 : Fin 128 → EReal) (Wn2 : W128x64) (bn2 : Fin 64 → EReal) : ArrN :=
  fun i => nodeEntry agg nf Wn1 bn1 Wn2 bn2 (i 0) (i 1)

end Cert.Mpnn

end
-- ==== Proof.RefValue.lean ====
/-
  The reference program's two results are the specification's arrays.

  Its updated edge features: the host spells each perceptron as two general dot products with the biases taken from
  vectors to rows and down the rows, and the gate as 1 / (1 + exp (−·)); at every entry this is the gate times the
  message of the edge's row.  Its updated node features: the same perceptron spelling over the aggregated messages
  and the node features set side by side.
-/
import proofs.«147378_j91285234909505_1_alg».proof.Proof.Gen.ReferenceIdeal.Run
import proofs.«147378_j91285234909505_1_alg».proof.Proof.Gen.ReferenceIdeal.Read
import proofs.«147378_j91285234909505_1_alg».proof.Proof.Spec

set_option maxRecDepth 8192

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.RowPerceptron Cert.Mpnn

/-- The reference's updated edge features, entry by entry: the gate times the message of the edge's row. -/
theorem ref_edge (g1 g2 ef : FVec Ideal S800000x64 .f32)
    (We1 : FVec Ideal S192x128 .f32) (be1 : FVec Ideal S128 .f32) (We2 : FVec Ideal S128x64 .f32) (be2 : FVec Ideal S64 .f32)
    (Wa1 : FVec Ideal S192x128 .f32) (ba1 : FVec Ideal S128 .f32) (Wa2 : FVec Ideal S128x64 .f32) (ba2 : FVec Ideal S64 .f32) :
    mulf (Host.divf (broadcastInDim S800000x64 ![] bcast_S_S800000x64 (constant S_ .f32 0x3F800000#32)) (addf (broadcastInDim S800000x64 ![] bcast_S_S800000x64 (constant S_ .f32 0x3F800000#32)) (Host.exp (Host.negf (addf (Host.dotGeneral dot_S800000x128_S128x64_S800000x64_1_0_0_1_n_n none (maximumf (addf (Host.dotGeneral dot_S800000x192_S192x128_S800000x128_1_0_0_1_n_n none (concatenate S800000x192 1 [⟨S800000x64, g1⟩, ⟨S800000x64, g2⟩, ⟨S800000x64, ef⟩] concatenates_S800000x64_S800000x64_S800000x64_S800000x192_d1) Wa1) (broadcastInDim S800000x128 ![0, 1] bcast_S1x128_S800000x128_0_1 (broadcastInDim S1x128 ![1] bcast_S128_S1x128_1 ba1))) (broadcastInDim S800000x128 ![] bcast_S_S800000x128 (constant S_ .f32 0x00000000#32))) Wa2) (broadcastInDim S800000x64 ![0, 1] bcast_S1x64_S800000x64_0_1 (broadcastInDim S1x64 ![1] bcast_S64_S1x64_1 ba2))))))) (addf (Host.dotGeneral dot_S800000x128_S128x64_S800000x64_1_0_0_1_n_n none (maximumf (addf (Host.dotGeneral dot_S800000x192_S192x128_S800000x128_1_0_0_1_n_n none (concatenate S800000x192 1 [⟨S800000x64, g1⟩, ⟨S800000x64, g2⟩, ⟨S800000x64, ef⟩] concatenates_S800000x64_S800000x64_S800000x64_S800000x192_d1) We1) (broadcastInDim S800000x128 ![0, 1] bcast_S1x128_S800000x128_0_1 (broadcastInDim S1x128 ![1] bcast_S128_S1x128_1 be1))) (broadcastInDim S800000x128 ![] bcast_S_S800000x128 (constant S_ .f32 0x00000000#32))) We2) (broadcastInDim S800000x64 ![0, 1] bcast_S1x64_S800000x64_0_1 (broadcastInDim S1x64 ![1] bcast_S64_S1x64_1 be2)))
      = edgeMsg g1 g2 ef We1 (fun k => be1 (ix1 k)) We2 (fun v => be2 (ix1 v)) Wa1 (fun k => ba1 (ix1 k)) Wa2 (fun v => ba2 (ix1 v)) := by
  funext i
  obtain ⟨r, u, rfl⟩ : ∃ (r : Fin 800000) (u : Fin 64), i = ix2 r u := ⟨i 0, i 1, eq_ix2 i⟩
  show _ * _ = Ideal.logistic _ * _
  refine congrArg₂ (· * ·) ?_ ?_
  · refine (host_logistic_apply _ _ _ (ix2 r u)).trans (congrArg Ideal.logistic ?_)
    refine (host_mlp_apply dot_S800000x192_S192x128_S800000x128_1_0_0_1_n_n dot_S800000x128_S128x64_S800000x64_1_0_0_1_n_n
      rfl rfl Read.lhs_main_v15_0 Read.lhs_main_v15_1 Read.rhs_main_v15_0 Read.rhs_main_v15_1
      rfl rfl Read.lhs_main_v20_0 Read.lhs_main_v20_1 Read.rhs_main_v20_0 Read.rhs_main_v20_1
      _ Wa1 Wa2 ba1 ba2 _ _ _ _ _ r u).trans ?_
    exact congrArg (fun x => mlp x Wa1 (fun k => ba1 (ix1 k)) Wa2 (fun v => ba2 (ix1 v)) u)
      (funext fun j => concat3_apply g1 g2 ef _ r j)
  · refine (host_mlp_apply dot_S800000x192_S192x128_S800000x128_1_0_0_1_n_n dot_S800000x128_S128x64_S800000x64_1_0_0_1_n_n
      rfl rfl Read.lhs_main_v15_0 Read.lhs_main_v15_1 Read.rhs_main_v15_0 Read.rhs_main_v15_1
      rfl rfl Read.lhs_main_v20_0 Read.lhs_main_v20_1 Read.rhs_main_v20_0 Read.rhs_main_v20_1
      _ We1 We2 be1 be2 _ _ _ _ _ r u).trans ?_
    exact congrArg (fun x => mlp x We1 (fun k => be1 (ix1 k)) We2 (fun v => be2 (ix1 v)) u)
      (funext fun j => concat3_apply g1 g2 ef _ r j)

/-- The reference's updated node features, entry by entry: the node perceptron of the node's row. -/
theorem ref_node (agg nf : FVec Ideal S50000x64 .f32)
    (Wn1 : FVec Ideal S128x128 .f32) (bn1 : FVec Ideal S128 .f32) (Wn2 : FVec Ideal S128x64 .f32) (bn2 : FVec Ideal S64 .f32) :
    addf (Host.dotGeneral dot_S50000x128_S128x64_S50000x64_1_0_0_1_n_n none (maximumf (addf (Host.dotGeneral dot_S50000x128_S128x128_S50000x128_1_0_0_1_n_n none (concatenate S50000x128 1 [⟨S50000x64, agg⟩, ⟨S50000x64, nf⟩] concatenates_S50000x64_S50000x64_S50000x128_d1) Wn1) (broadcastInDim S50000x128 ![0, 1] bcast_S1x128_S50000x128_0_1 (broadcastInDim S1x128 ![1] bcast_S128_S1x128_1 bn1))) (broadcastInDim S50000x128 ![] bcast_S_S50000x128 (constant S_ .f32 0x00000000#32))) Wn2) (broadcastInDim S50000x64 ![0, 1] bcast_S1x64_S50000x64_0_1 (broadcastInDim S1x64 ![1] bcast_S64_S1x64_1 bn2))
      = nodeOut agg nf Wn1 (fun k => bn1 (ix1 k)) Wn2 (fun v => bn2 (ix1 v)) := by
  funext i
  obtain ⟨r, u, rfl⟩ : ∃ (r : Fin 50000) (u : Fin 64), i = ix2 r u := ⟨i 0, i 1, eq_ix2 i⟩
  refine (host_mlp_apply dot_S50000x128_S128x128_S50000x128_1_0_0_1_n_n dot_S50000x128_S128x64_S50000x64_1_0_0_1_n_n
    rfl rfl Read.lhs_main_v44_0 Read.lhs_main_v44_1 Read.rhs_main_v44_0 Read.rhs_main_v44_1
    rfl rfl Read.lhs_main_v49_0 Read.lhs_main_v49_1 Read.rhs_main_v49_0 Read.rhs_main_v49_1
    _ Wn1 Wn2 bn1 bn2 _ _ _ _ _ r u).trans ?_
  exact congrArg (fun x => mlp x Wn1 (fun k => bn1 (ix1 k)) Wn2 (fun v => bn2 (ix1 v)) u)
    (funext fun j => concat2_apply agg nf _ r j)

end Cert.ReferenceIdeal.RefValue

end
-- ==== Proof.KernelRun.lean ====
/-
  The idealized kernel's run, with every buffer that outlives a kernel body named at the end.

  @main is four stretches in order: host operations, the edge kernel's grid, host operations, the node kernel's
  grid.  The buffer contents at the boundaries form a fold from the launch memory: each host stretch applies its
  operations, each grid replaces its output array by what its write-backs leave and keeps everything else.  Every
  weakly fair execution terminates without a fault, and at the end every unscoped buffer of the TensorCore holds the
  last boundary's contents.  The two results are among those buffers, so what the program returns is read off the
  fold.
-/
import proofs.«147378_j91285234909505_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state every unscoped buffer
    of each TensorCore holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KernelBody.lean ====
/-
  What the two kernel bodies store, entry by entry on the extended reals.

  The edge kernel's body loads a block of 4000 rows of each of the three edge-aligned arrays and the eight parameter
  arrays whole, and stores one 4000 × 64 block: at row p and column u the logistic function of the gate perceptron
  times the message perceptron, both of the row  [ x0 p | x1 p | x2 p ].  The node kernel's body loads 5000 rows of the
  aggregated messages and of the node features and stores the node perceptron of the row  [ x0 p | x1 p ].  The
  operands are narrowed to a 16-bit format before each product; on the extended reals that is the identity, and a
  product into the zero accumulator is the plain finite sum.
-/
import proofs.«147378_j91285234909505_1_alg».proof.Proof.Gen.KernelIdeal.Skeleton
import proofs.«147378_j91285234909505_1_alg».proof.Proof.Spec

set_option maxRecDepth 8192

noncomputable section

open scoped BigOperators

namespace Cert.KernelIdeal.Body

open Cert.KernelIdeal Cert.KernelIdeal.Gen Idealize.ShloMosaic Idealize.ShloMosaic.TcCoe
open Idealize.ShloMosaic.ValueIdx Cert.RowPerceptron

/-! ## The four products' index maps -/

/-- Where `dot_S4000x192_S192x128_S4000x128_1_0_0_1_n_n` sends an output index and a contraction index: the left operand's row follows the output's row. -/
theorem dA_l0 (i : S4000x128.Idx) (q : dot_S4000x192_S192x128_S4000x128_1_0_0_1_n_n.contr.Idx) : (dot_S4000x192_S192x128_S4000x128_1_0_0_1_n_n.lhsIdx i q 0).val = (i 0).val := by
  unfold DotDims.lhsIdx
  rw [dif_neg (show ¬(0 : Fin S4000x192.rank) ∈ dot_S4000x192_S192x128_S4000x128_1_0_0_1_n_n.lhsBatch by decide), dif_pos (show (0 : Fin S4000x192.rank) ∈ dot_S4000x192_S192x128_S4000x128_1_0_0_1_n_n.lhsNonContracting by decide)]
  rfl
/-- The left operand's column is the contraction coordinate. -/
theorem dA_l1 (i : S4000x128.Idx) (q : dot_S4000x192_S192x128_S4000x128_1_0_0_1_n_n.contr.Idx) : (dot_S4000x192_S192x128_S4000x128_1_0_0_1_n_n.lhsIdx i q 1).val = (q ⟨0, by decide⟩).val :=
  dot_S4000x192_S192x128_S4000x128_1_0_0_1_n_n.lhsIdx_val_of_single rfl i q
/-- The right operand's row is the contraction coordinate. -/
theorem dA_r0 (i : S4000x128.Idx) (q : dot_S4000x192_S192x128_S4000x128_1_0_0_1_n_n.contr.Idx) : (dot_S4000x192_S192x128_S4000x128_1_0_0_1_n_n.rhsIdx i q 0).val = (q ⟨0, by decide⟩).val :=
  dot_S4000x192_S192x128_S4000x128_1_0_0_1_n_n.rhsIdx_val_of_single rfl i q
/-- The right operand's column follows the output's column. -/
theorem dA_r1 (i : S4000x128.Idx) (q : dot_S4000x192_S192x128_S4000x128_1_0_0_1_n_n.contr.Idx) : (dot_S4000x192_S192x128_S4000x128_1_0_0_1_n_n.rhsIdx i q 1).val = (i 1).val := by
  unfold DotDims.rhsIdx
  rw [dif_neg (show ¬(1 : Fin S192x128.rank) ∈ dot_S4000x192_S192x128_S4000x128_1_0_0_1_n_n.rhsBatch by decide), dif_pos (show (1 : Fin S192x128.rank) ∈ dot_S4000x192_S192x128_S4000x128_1_0_0_1_n_n.rhsNonContracting by decide)]
  rfl

/-- Where `dot_S4000x128_S128x64_S4000x64_1_0_0_1_n_n` sends an output index and a contraction index: the left operand's row follows the output's row. -/
theorem dB_l0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- The left operand's column is the contraction coordinate. -/
theorem dB_l1 (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
/-- The right operand's row is the contraction coordinate. -/
theorem dB_r0 (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
/-- The right operand's column follows the output's column. -/
theorem dB_r1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Where `dot_S5000x128_S128x128_S5000x128_1_0_0_1_n_n` sends an output index and a contraction index: the left operand's row follows the output's row. -/
theorem dC_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction coordinate. -/
theorem dC_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction coordinate. -/
theorem dC_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column follows the output's column. -/
theorem dC_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Where `dot_S5000x128_S128x64_S5000x64_1_0_0_1_n_n` sends an output index and a contraction index: the left operand's row follows the output's row. -/
theorem dD_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contraction coordinate. -/
theorem dD_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contraction coordinate. -/
theorem dD_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column follows the output's column. -/
theorem dD_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The edge kernel's stored block -/

/-- The three loaded row blocks set side by side, at row p: the edge's 192 numbers. -/
theorem edge_row (x0 x1 x2 : Vec Ideal S4000x64 .f32) (p : Fin 4000) :
    (fun j => k0_pay2 x0 x1 x2 (ix2 p j))
      = pick3 (fun q => x0 (ix2 p q)) (fun q => x1 (ix2 p q)) (fun q => x2 (ix2 p q)) := by
  funext j
  show concatenate S4000x192 1 [⟨S4000x64, shapeCast S4000x64 x0 shapeCasts_S4000x64_S4000x64⟩,
    ⟨S4000x64, shapeCast S4000x64 x1 shapeCasts_S4000x64_S4000x64⟩, ⟨S4000x64, x2⟩]
    concatenates_S4000x64_S4000x64_S4000x64_S4000x192_d1 (ix2 p j) = _
  refine (concat3_apply _ _ _ _ p j).trans ?_
  rw [shapeCast_self, shapeCast_self]

/-- The message perceptron's value as the body computes it is the printed term. -/
theorem pay4_eq (x0 x1 x2 : Vec Ideal S4000x64 .f32) (x3 : Vec Ideal S192x128 .f32) (x5 : Vec Ideal S128x64 .f32)
    (x4 : Vec Ideal S1x128 .f32) (x6 : Vec Ideal S1x64 .f32) :
    k0_pay4 x0 x1 x2 x3 x5 x4 x6 = addf (matmul dot_S4000x128_S128x64_S4000x64_1_0_0_1_n_n none (truncf .bf16 (maximumf (addf (matmul dot_S4000x192_S192x128_S4000x128_1_0_0_1_n_n none (k0_pay2 x0 x1 x2) (truncf .bf16 x3 bitsLt_bf16_f32) (constant S4000x128 .f32 0x00000000#32)) (broadcastTo S4000x128 (shapeCast S1x128 x4 shapeCasts_S1x128_S1x128) broadcasts_S1x128_S4000x128)) (broadcast S4000x128 (Scalar.ofBits (F := Ideal) .f32 0x00000000#32))) bitsLt_bf16_f32) (truncf .bf16 x5 bitsLt_bf16_f32) (constant S4000x64 .f32 0x00000000#32)) (broadcastTo S4000x64 (shapeCast S1x64 x6 shapeCasts_S1x64_S1x64) broadcasts_S1x64_S4000x64) := rfl

/-- The stored value: the logistic function of the gate's second layer times the message, as arrays. -/
theorem pay1_eq (x0 x1 x2 : Vec Ideal S4000x64 .f32) (x7 : Vec Ideal S192x128 .f32) (x8 : Vec Ideal S1x128 .f32)
    (x9 : Vec Ideal S128x64 .f32) (x10 : Vec Ideal S1x64 .f32) (v27 : FVec Ideal S4000x64 .f32) :
    k0_pay1 (k0_pay3 x9) v27 (k0_pay5 x0 x1 x2 x7 x8) (k0_pay6 (F := Ideal)) x10
      = mulf (logistic (addf (matmul dot_S4000x128_S128x64_S4000x64_1_0_0_1_n_n none (truncf .bf16 (maximumf (addf (matmul dot_S4000x192_S192x128_S4000x128_1_0_0_1_n_n none (k0_pay2 x0 x1 x2) (truncf .bf16 x7 bitsLt_bf16_f32) (constant S4000x128 .f32 0x00000000#32)) (broadcastTo S4000x128 (shapeCast S1x128 x8 shapeCasts_S1x128_S1x128) broadcasts_S1x128_S4000x128)) (broadcast S4000x128 (Scalar.ofBits (F := Ideal) .f32 0x00000000#32))) bitsLt_bf16_f32) (truncf .bf16 x9 bitsLt_bf16_f32) (constant S4000x64 .f32 0x00000000#32)) (broadcastTo S4000x64 (shapeCast S1x64 x10 shapeCasts_S1x64_S1x64) broadcasts_S1x64_S4000x64))) v27 := rfl

/-- The edge kernel's stored block at entry j: gate times message of row j 0, at column j 1. -/
theorem edge_payload (x0 x1 x2 : Vec Ideal S4000x64 .f32) (x3 : Vec Ideal S192x128 .f32) (x4 : Vec Ideal S1x128 .f32)
    (x5 : Vec Ideal S128x64 .f32) (x6 : Vec Ideal S1x64 .f32) (x7 : Vec Ideal S192x128 .f32) (x8 : Vec Ideal S1x128 .f32)
    (x9 : Vec Ideal S128x64 .f32) (x10 : Vec Ideal S1x64 .f32) (j : S4000x64.Idx) :
    k0_pay1 (k0_pay3 x9) (k0_pay4 x0 x1 x2 x3 x5 x4 x6) (k0_pay5 x0 x1 x2 x7 x8) (k0_pay6 (F := Ideal)) x10 j
      = Ideal.logistic (mlp (pick3 (fun q => x0 (ix2 (j 0) q)) (fun q => x1 (ix2 (j 0) q)) (fun q => x2 (ix2 (j 0) q)))
            x7 (fun k => x8 (ix2 (0 : Fin 1) k)) x9 (fun v => x10 (ix2 (0 : Fin 1) v)) (j 1))
        * mlp (pick3 (fun q => x0 (ix2 (j 0) q)) (fun q => x1 (ix2 (j 0) q)) (fun q => x2 (ix2 (j 0) q)))
            x3 (fun k => x4 (ix2 (0 : Fin 1) k)) x5 (fun v => x6 (ix2 (0 : Fin 1) v)) (j 1) := by
  obtain ⟨p, u, rfl⟩ : ∃ (p : Fin 4000) (u : Fin 64), j = ix2 p u := ⟨j 0, j 1, eq_ix2 j⟩
  rw [pay1_eq, pay4_eq]
  show FloatOps.mulf (FloatOps.logistic _) _ = _
  rw [Ideal.mulf_def, Ideal.logistic_def]
  refine congrArg₂ (fun s e => Ideal.logistic s * e) ?_ ?_
  · refine (kernel_mlp_apply dot_S4000x192_S192x128_S4000x128_1_0_0_1_n_n dot_S4000x128_S128x64_S4000x64_1_0_0_1_n_n rfl rfl dA_l0 dA_l1 dA_r0 dA_r1 rfl rfl dB_l0 dB_l1 dB_r0 dB_r1
      (k0_pay2 x0 x1 x2) (truncf .bf16 x7 bitsLt_bf16_f32) (truncf .bf16 x9 bitsLt_bf16_f32) x8 x10 _ _ _ _ _ p u).trans ?_
    exact congrArg (fun x => mlp x x7 (fun k => x8 (ix2 (0 : Fin 1) k)) x9 (fun v => x10 (ix2 (0 : Fin 1) v)) u) (edge_row x0 x1 x2 p)
  · refine (kernel_mlp_apply dot_S4000x192_S192x128_S4000x128_1_0_0_1_n_n dot_S4000x128_S128x64_S4000x64_1_0_0_1_n_n rfl rfl dA_l0 dA_l1 dA_r0 dA_r1 rfl rfl dB_l0 dB_l1 dB_r0 dB_r1
      (k0_pay2 x0 x1 x2) (truncf .bf16 x3 bitsLt_bf16_f32) (truncf .bf16 x5 bitsLt_bf16_f32) x4 x6 _ _ _ _ _ p u).trans ?_
    exact congrArg (fun x => mlp x x3 (fun k => x4 (ix2 (0 : Fin 1) k)) x5 (fun v => x6 (ix2 (0 : Fin 1) v)) u) (edge_row x0 x1 x2 p)

/-! ## The node kernel's stored block -/

/-- The node body's stored value is the printed term. -/
theorem pay_node_eq (x0 x1 : Vec Ideal S5000x64 .f32) (x2 : Vec Ideal S128x128 .f32) (x4 : Vec Ideal S128x64 .f32)
    (x3 : Vec Ideal S1x128 .f32) (x5 : Vec Ideal S1x64 .f32) :
    k1_pay1 x0 x1 x2 x4 x3 x5 = addf (matmul dot_S5000x128_S128x64_S5000x64_1_0_0_1_n_n none (truncf .bf16 (maximumf (addf (matmul dot_S5000x128_S128x128_S5000x128_1_0_0_1_n_n none (truncf .bf16 (concatenate S5000x128 1 [⟨S5000x64, shapeCast S5000x64 x0 shapeCasts_S5000x64_S5000x64⟩, ⟨S5000x64, x1⟩] concatenates_S5000x64_S5000x64_S5000x128_d1) bitsLt_bf16_f32) (truncf .bf16 x2 bitsLt_bf16_f32) (constant S5000x128 .f32 0x00000000#32)) (broadcastTo S5000x128 (shapeCast S1x128 x3 shapeCasts_S1x128_S1x128) broadcasts_S1x128_S5000x128)) (broadcast S5000x128 (Scalar.ofBits (F := Ideal) .f32 0x00000000#32))) bitsLt_bf16_f32) (truncf .bf16 x4 bitsLt_bf16_f32) (constant S5000x64 .f32 0x00000000#32)) (broadcastTo S5000x64 (shapeCast S1x64 x5 shapeCasts_S1x64_S1x64) broadcasts_S1x64_S5000x64) := rfl

/-- The two loaded row blocks set side by side, at row p: the node's 128 numbers. -/
theorem node_row (x0 x1 : Vec Ideal S5000x64 .f32) (p : Fin 5000) :
    (fun j : Fin 128 => (concatenate S5000x128 1 [⟨S5000x64, shapeCast S5000x64 x0 shapeCasts_S5000x64_S5000x64⟩, ⟨S5000x64, x1⟩] concatenates_S5000x64_S5000x64_S5000x128_d1 : S5000x128.Idx → EReal) (ix2 p j))
      = pick2 (fun q => x0 (ix2 p q)) (fun q => x1 (ix2 p q)) := by
  funext j
  refine (concat2_apply _ _ _ p j).trans ?_
  rw [shapeCast_self]

/-- The node kernel's stored block at entry j: the node perceptron of row j 0, at column j 1. -/
theorem node_payload (x0 x1 : Vec Ideal S5000x64 .f32) (x2 : Vec Ideal S128x128 .f32) (x3 : Vec Ideal S1x128 .f32)
    (x4 : Vec Ideal S128x64 .f32) (x5 : Vec Ideal S1x64 .f32) (j : S5000x64.Idx) :
    k1_pay1 x0 x1 x2 x4 x3 x5 j
      = mlp (pick2 (fun q => x0 (ix2 (j 0) q)) (fun q => x1 (ix2 (j 0) q)))
          x2 (fun k => x3 (ix2 (0 : Fin 1) k)) x4 (fun v => x5 (ix2 (0 : Fin 1) v)) (j 1) := by
  obtain ⟨p, u, rfl⟩ : ∃ (p : Fin 5000) (u : Fin 64), j = ix2 p u := ⟨j 0, j 1, eq_ix2 j⟩
  rw [pay_node_eq]
  refine (kernel_mlp_apply dot_S5000x128_S128x128_S5000x128_1_0_0_1_n_n dot_S5000x128_S128x64_S5000x64_1_0_0_1_n_n rfl rfl dC_l0 dC_l1 dC_r0 dC_r1 rfl rfl dD_l0 dD_l1 dD_r0 dD_r1
    (truncf .bf16 (concatenate S5000x128 1 [⟨S5000x64, shapeCast S5000x64 x0 shapeCasts_S5000x64_S5000x64⟩, ⟨S5000x64, x1⟩] concatenates_S5000x64_S5000x64_S5000x128_d1) bitsLt_bf16_f32) (truncf .bf16 x2 bitsLt_bf16_f32) (truncf .bf16 x4 bitsLt_bf16_f32) x3 x5 _ _ _ _ _ p u).trans ?_
  exact congrArg (fun x => mlp x x2 (fun k => x3 (ix2 (0 : Fin 1) k)) x4 (fun v => x5 (ix2 (0 : Fin 1) v)) u) (node_row x0 x1 p)

end Cert.KernelIdeal.Body

end
-- ==== Proof.KernelValue.lean ====
/-
  From what each grid point writes back to the whole output array, for both kernels, at any entry contents.

  The edge kernel runs at 200 points; point t stages rows 4000·t … 4000·t + 3999 of the three edge-aligned arrays and
  the eight parameter arrays whole, and writes back rows 4000·t … of the output.  Its stored block at (p, u) is the
  gate times the message of its row p, which is row 4000·t + p of the arrays: so point t writes back block t of the
  specification's edge array.  The 200 blocks tile the 800000 rows (the point covering row r is r / 4000), so the
  output array ends equal to that array.  The node kernel is the same over 10 points of 5000 rows.
-/
import proofs.«147378_j91285234909505_1_alg».proof.Proof.KernelRun
import proofs.«147378_j91285234909505_1_alg».proof.Proof.KernelBody

set_option maxRecDepth 16384

noncomputable section

namespace Cert.KernelIdeal.Hand

open Cert.KernelIdeal Cert.KernelIdeal.Gen Cert.KernelIdeal.Body
open Idealize.ShloMosaic Idealize.ShloMosaic.TcCoe Idealize.ShloMosaic.Tactic
open Idealize.SL.Sem
open Idealize.ShloMosaic.Pipeline (Dat)
open Idealize.ShloMosaic.ValueIdx Cert.RowPerceptron Cert.Mpnn

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the grids -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = t.val ∧ win0_11.index t (1 : Fin 2) = 0 :=
  (by decide +kernel : ∀ t : Fin grid0.N, _)
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

/-! ## The edge kernel's input blocks -/

/-- Window 0's block at point t holds rows 4000·t … 4000·t + 3999 of its array. -/
theorem iblk0_0_apply (c : Dev nD) (t : Fin cfg0.N) (p : Fin 4000) (q : Fin 64) (r : Fin 800000) (hr : r.val = 4000 * t.val + p.val) :
    (iblk0 V c 0 t : Vec Ideal S4000x64 .f32) (ix2 p q) = (V c main_v6 : ArrE) (ix2 r q) := by
  obtain ⟨e0, e1⟩ := idx0_0 t
  unfold iblk0
  rw [View.read_apply]
  show (V c main_v6 : ArrE) _ = _
  refine congrArg (V c main_v6 : ArrE) (funext fun a => Fin.ext ?_)
  match a with
  | ⟨0, _⟩ =>
    show win0_0.index t (0 : Fin 2) * 4000 + 1 * p.val = r.val
    rw [e0, hr]; omega
  | ⟨1, _⟩ =>
    show win0_0.index t (1 : Fin 2) * 64 + 1 * q.val = q.val
    rw [e1]; omega

/-- Window 1's block at point t holds rows 4000·t … 4000·t + 3999 of its array. -/
theorem iblk0_1_apply (c : Dev nD) (t : Fin cfg0.N) (p : Fin 4000) (q : Fin 64) (r : Fin 800000) (hr : r.val = 4000 * t.val + p.val) :
    (iblk0 V c 1 t : Vec Ideal S4000x64 .f32) (ix2 p q) = (V c main_v13 : ArrE) (ix2 r q) := by
  obtain ⟨e0, e1⟩ := idx0_1 t
  unfold iblk0
  rw [View.read_apply]
  show (V c main_v13 : ArrE) _ = _
  refine congrArg (V c main_v13 : ArrE) (funext fun a => Fin.ext ?_)
  match a with
  | ⟨0, _⟩ =>
    show win0_1.index t (0 : Fin 2) * 4000 + 1 * p.val = r.val
    rw [e0, hr]; omega
  | ⟨1, _⟩ =>
    show win0_1.index t (1 : Fin 2) * 64 + 1 * q.val = q.val
    rw [e1]; omega

/-- Window 2's block at point t holds rows 4000·t … 4000·t + 3999 of its array. -/
theorem iblk0_2_apply (c : Dev nD) (t : Fin cfg0.N) (p : Fin 4000) (q : Fin 64) (r : Fin 800000) (hr : r.val = 4000 * t.val + p.val) :
    (iblk0 V c 2 t : Vec Ideal S4000x64 .f32) (ix2 p q) = (V c main_arg1 : ArrE) (ix2 r q) := by
  obtain ⟨e0, e1⟩ := idx0_2 t
  unfold iblk0
  rw [View.read_apply]
  show (V c main_arg1 : ArrE) _ = _
  refine congrArg (V c main_arg1 : ArrE) (funext fun a => Fin.ext ?_)
  match a with
  | ⟨0, _⟩ =>
    show win0_2.index t (0 : Fin 2) * 4000 + 1 * p.val = r.val
    rw [e0, hr]; omega
  | ⟨1, _⟩ =>
    show win0_2.index t (1 : Fin 2) * 64 + 1 * q.val = q.val
    rw [e1]; omega

/-- Window 3 stages its whole array at every point. -/
theorem iblk0_3_eq (c : Dev nD) (t : Fin cfg0.N) :
    (iblk0 V c 3 t : Vec Ideal S192x128 .f32) = (V c main_arg4 : S192x128.Idx → EReal) := by
  obtain ⟨e0, e1⟩ := idx0_3 t
  funext y
  unfold iblk0
  rw [View.read_apply]
  show (V c main_arg4 : S192x128.Idx → EReal) _ = _
  refine congrArg (V c main_arg4 : S192x128.Idx → EReal) (funext fun a => Fin.ext ?_)
  match a with
  | ⟨0, _⟩ =>
    show win0_3.index t (0 : Fin 2) * 192 + 1 * (y 0).val = (y 0).val
    rw [e0]; omega
  | ⟨1, _⟩ =>
    show win0_3.index t (1 : Fin 2) * 128 + 1 * (y 1).val = (y 1).val
    rw [e1]; omega

/-- Window 4 stages its whole array at every point. -/
theorem iblk0_4_eq (c : Dev nD) (t : Fin cfg0.N) :
    (iblk0 V c 4 t : Vec Ideal S1x128 .f32) = (V c main_v14 : S1x128.Idx → EReal) := by
  obtain ⟨e0, e1⟩ := idx0_4 t
  funext y
  unfold iblk0
  rw [View.read_apply]
  show (V c main_v14 : S1x128.Idx → EReal) _ = _
  refine congrArg (V c main_v14 : S1x128.Idx → EReal) (funext fun a => Fin.ext ?_)
  match a with
  | ⟨0, _⟩ =>
    show win0_4.index t (0 : Fin 2) * 1 + 1 * (y 0).val = (y 0).val
    rw [e0]; omega
  | ⟨1, _⟩ =>
    show win0_4.index t (1 : Fin 2) * 128 + 1 * (y 1).val = (y 1).val
    rw [e1]; omega

/-- Window 5 stages its whole array at every point. -/
theorem iblk0_5_eq (c : Dev nD) (t : Fin cfg0.N) :
    (iblk0 V c 5 t : Vec Ideal S128x64 .f32) = (V c main_arg6 : S128x64.Idx → EReal) := by
  obtain ⟨e0, e1⟩ := idx0_5 t
  funext y
  unfold iblk0
  rw [View.read_apply]
  show (V c main_arg6 : S128x64.Idx → EReal) _ = _
  refine congrArg (V c main_arg6 : S128x64.Idx → EReal) (funext fun a => Fin.ext ?_)
  match a with
  | ⟨0, _⟩ =>
    show win0_5.index t (0 : Fin 2) * 128 + 1 * (y 0).val = (y 0).val
    rw [e0]; omega
  | ⟨1, _⟩ =>
    show win0_5.index t (1 : Fin 2) * 64 + 1 * (y 1).val = (y 1).val
    rw [e1]; omega

/-- Window 6 stages its whole array at every point. -/
theorem iblk0_6_eq (c : Dev nD) (t : Fin cfg0.N) :
    (iblk0 V c 6 t : Vec Ideal S1x64 .f32) = (V c main_v15 : S1x64.Idx → EReal) := by
  obtain ⟨e0, e1⟩ := idx0_6 t
  funext y
  unfold iblk0
  rw [View.read_apply]
  show (V c main_v15 : S1x64.Idx → EReal) _ = _
  refine congrArg (V c main_v15 : S1x64.Idx → EReal) (funext fun a => Fin.ext ?_)
  match a with
  | ⟨0, _⟩ =>
    show win0_6.index t (0 : Fin 2) * 1 + 1 * (y 0).val = (y 0).val
    rw [e0]; omega
  | ⟨1, _⟩ =>
    show win0_6.index t (1 : Fin 2) * 64 + 1 * (y 1).val = (y 1).val
    rw [e1]; omega

/-- Window 7 stages its whole array at every point. -/
theorem iblk0_7_eq (c : Dev nD) (t : Fin cfg0.N) :
    (iblk0 V c 7 t : Vec Ideal S192x128 .f32) = (V c main_arg8 : S192x128.Idx → EReal) := by
  obtain ⟨e0, e1⟩ := idx0_7 t
  funext y
  unfold iblk0
  rw [View.read_apply]
  show (V c main_arg8 : S192x128.Idx → EReal) _ = _
  refine congrArg (V c main_arg8 : S192x128.Idx → EReal) (funext fun a => Fin.ext ?_)
  match a with
  | ⟨0, _⟩ =>
    show win0_7.index t (0 : Fin 2) * 192 + 1 * (y 0).val = (y 0).val
    rw [e0]; omega
  | ⟨1, _⟩ =>
    show win0_7.index t (1 : Fin 2) * 128 + 1 * (y 1).val = (y 1).val
    rw [e1]; omega

/-- Window 8 stages its whole array at every point. -/
theorem iblk0_8_eq (c : Dev nD) (t : Fin cfg0.N) :
    (iblk0 V c 8 t : Vec Ideal S1x128 .f32) = (V c main_v16 : S1x128.Idx → EReal) := by
  obtain ⟨e0, e1⟩ := idx0_8 t
  funext y
  unfold iblk0
  rw [View.read_apply]
  show (V c main_v16 : S1x128.Idx → EReal) _ = _
  refine congrArg (V c main_v16 : S1x128.Idx → EReal) (funext fun a => Fin.ext ?_)
  match a with
  | ⟨0, _⟩ =>
    show win0_8.index t (0 : Fin 2) * 1 + 1 * (y 0).val = (y 0).val
    rw [e0]; omega
  | ⟨1, _⟩ =>
    show win0_8.index t (1 : Fin 2) * 128 + 1 * (y 1).val = (y 1).val
    rw [e1]; omega

/-- Window 9 stages its whole array at every point. -/
theorem iblk0_9_eq (c : Dev nD) (t : Fin cfg0.N) :
    (iblk0 V c 9 t : Vec Ideal S128x64 .f32) = (V c main_arg10 : S128x64.Idx → EReal) := by
  obtain ⟨e0, e1⟩ := idx0_9 t
  funext y
  unfold iblk0
  rw [View.read_apply]
  show (V c main_arg10 : S128x64.Idx → EReal) _ = _
  refine congrArg (V c main_arg10 : S128x64.Idx → EReal) (funext fun a => Fin.ext ?_)
  match a with
  | ⟨0, _⟩ =>
    show win0_9.index t (0 : Fin 2) * 128 + 1 * (y 0).val = (y 0).val
    rw [e0]; omega
  | ⟨1, _⟩ =>
    show win0_9.index t (1 : Fin 2) * 64 + 1 * (y 1).val = (y 1).val
    rw [e1]; omega

/-- Window 10 stages its whole array at every point. -/
theorem iblk0_10_eq (c : Dev nD) (t : Fin cfg0.N) :
    (iblk0 V c 10 t : Vec Ideal S1x64 .f32) = (V c main_v17 : S1x64.Idx → EReal) := by
  obtain ⟨e0, e1⟩ := idx0_10 t
  funext y
  unfold iblk0
  rw [View.read_apply]
  show (V c main_v17 : S1x64.Idx → EReal) _ = _
  refine congrArg (V c main_v17 : S1x64.Idx → EReal) (funext fun a => Fin.ext ?_)
  match a with
  | ⟨0, _⟩ =>
    show win0_10.index t (0 : Fin 2) * 1 + 1 * (y 0).val = (y 0).val
    rw [e0]; omega
  | ⟨1, _⟩ =>
    show win0_10.index t (1 : Fin 2) * 64 + 1 * (y 1).val = (y 1).val
    rw [e1]; omega

/-! ## The edge kernel's output array -/

/-- The specification's edge array of the arrays the edge kernel finds at entry. -/
def edgeOf (c : Dev nD) : ArrE :=
  edgeMsg (V c main_v6) (V c main_v13) (V c main_arg1)
    (V c main_arg4) (fun k => (V c main_v14 : S1x128.Idx → EReal) (ix2 (0 : Fin 1) k))
    (V c main_arg6) (fun v => (V c main_v15 : S1x64.Idx → EReal) (ix2 (0 : Fin 1) v))
    (V c main_arg8) (fun k => (V c main_v16 : S1x128.Idx → EReal) (ix2 (0 : Fin 1) k))
    (V c main_arg10) (fun v => (V c main_v17 : S1x64.Idx → EReal) (ix2 (0 : Fin 1) v))

/-- Point t writes back block t of the specification's edge array. -/
theorem edge_flushed (c : Dev nD) (t : Fin cfg0.N) :
    (dat0 V c).flushed 11 t = ((cfg0.win 11).blk t).view.read (Elt Ideal) (edgeOf V c) := by
  show (cfg0.win 11).cut (grid0.coords t) ((dat0 V c).after 11 t) = _
  rw [after0_11]
  unfold out0_11
  rw [View.canon_unit_zero hz]
  simp only [View.ld_unit_zero (S := S4000x64) hz, View.ld_unit_zero (S := S192x128) hz, View.ld_unit_zero (S := S128x64) hz,
    View.ld_unit_zero (S := S1x128) hz, View.ld_unit_zero (S := S1x64) hz]
  obtain ⟨e0, e1⟩ := idx0_11 t
  funext j
  have hj0 : (j 0).val < 4000 := (j 0).isLt
  have hj1 : (j 1).val < 64 := (j 1).isLt
  show k0_pay1 (k0_pay3 (iblk0 V c 9 t)) (k0_pay4 (iblk0 V c 0 t) (iblk0 V c 1 t) (iblk0 V c 2 t) (iblk0 V c 3 t) (iblk0 V c 5 t) (iblk0 V c 4 t) (iblk0 V c 6 t))
      (k0_pay5 (iblk0 V c 0 t) (iblk0 V c 1 t) (iblk0 V c 2 t) (iblk0 V c 7 t) (iblk0 V c 8 t)) (k0_pay6 (F := Ideal)) (iblk0 V c 10 t) j
    = edgeOf V c (((cfg0.win 11).blk t).view.emb j)
  refine (edge_payload _ _ _ _ _ _ _ _ _ _ _ j).trans ?_
  have hr : ((((cfg0.win 11).blk t).view.emb j) 0).val = 4000 * t.val + (j 0).val := by
    show win0_11.index t (0 : Fin 2) * 4000 + 1 * (j 0).val = _
    rw [e0]; omega
  have hu : (((cfg0.win 11).blk t).view.emb j) 1 = j 1 := Fin.ext (by
    show win0_11.index t (1 : Fin 2) * 64 + 1 * (j 1).val = (j 1).val
    rw [e1]; omega)
  unfold edgeOf edgeMsg edgeEntry edgeRow
  rw [hu, iblk0_3_eq, iblk0_4_eq, iblk0_5_eq, iblk0_6_eq, iblk0_7_eq, iblk0_8_eq, iblk0_9_eq, iblk0_10_eq,
    show (fun q => (iblk0 V c 0 t : Vec Ideal S4000x64 .f32) (ix2 (j 0) q))
        = fun q => (V c main_v6 : ArrE) (ix2 ((((cfg0.win 11).blk t).view.emb j) 0) q)
      from funext fun q => iblk0_0_apply V c t (j 0) q _ hr,
    show (fun q => (iblk0 V c 1 t : Vec Ideal S4000x64 .f32) (ix2 (j 0) q))
        = fun q => (V c main_v13 : ArrE) (ix2 ((((cfg0.win 11).blk t).view.emb j) 0) q)
      from funext fun q => iblk0_1_apply V c t (j 0) q _ hr,
    show (fun q => (iblk0 V c 2 t : Vec Ideal S4000x64 .f32) (ix2 (j 0) q))
        = fun q => (V c main_arg1 : ArrE) (ix2 ((((cfg0.win 11).blk t).view.emb j) 0) q)
      from funext fun q => iblk0_2_apply V c t (j 0) q _ hr]

/-- Every row of the edge array lies in the block of the point its number divided by 4000 names. -/
theorem edge_cover (i : S800000x64.Idx) :
    ∃ t : Fin cfg0.N, (cfg0.win 11).flush t = true ∧ i ∈ ((cfg0.win 11).blk t).view.set := by
  have hi0 : (i 0).val < 800000 := (i 0).isLt
  have hi1 : (i 1).val < 64 := (i 1).isLt
  have hN : cfg0.N = 200 := N_0
  have ht : (i 0).val / 4000 < cfg0.N := by rw [hN]; omega
  obtain ⟨e0, e1⟩ := idx0_11 ⟨(i 0).val / 4000, ht⟩
  refine ⟨⟨(i 0).val / 4000, ht⟩, flush0_11 _, ?_⟩
  show i ∈ ((View.whole main_v18).slice (win0_11.rect ⟨(i 0).val / 4000, ht⟩)).set
  rw [View.set_slice_whole, Rect.mem_set_unit]
  intro a
  match a with
  | ⟨0, _⟩ =>
    show win0_11.index ⟨(i 0).val / 4000, ht⟩ (0 : Fin 2) * 4000 ≤ (i 0).val
      ∧ (i 0).val < win0_11.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_11.index ⟨(i 0).val / 4000, ht⟩ (1 : Fin 2) * 64 ≤ (i 1).val
      ∧ (i 1).val < win0_11.index ⟨(i 0).val / 4000, ht⟩ (1 : Fin 2) * 64 + 64
    rw [e1]
    omega

/-- The edge kernel's output array after its grid: the specification's edge array of the entry contents. -/
theorem edge_final (c : Dev nD) : (dat0 V c).arrAt 11 cfg0.N = edgeOf V c :=
  (dat0 V c).arrAt_eq_of_cover 11 (edgeOf V c) (fun t _ => edge_flushed V c t) edge_cover

/-! ## The node kernel's input blocks -/

/-- Window 0's block at point t holds rows 5000·t … 5000·t + 4999 of its array. -/
theorem iblk1_0_apply (c : Dev nD) (t : Fin cfg1.N) (p : Fin 5000) (q : Fin 64) (r : Fin 50000) (hr : r.val = 5000 * t.val + p.val) :
    (iblk1 V c 0 t : Vec Ideal S5000x64 .f32) (ix2 p q) = (V c main_v21 : ArrN) (ix2 r q) := by
  obtain ⟨e0, e1⟩ := idx1_0 t
  unfold iblk1
  rw [View.read_apply]
  show (V c main_v21 : ArrN) _ = _
  refine congrArg (V c main_v21 : ArrN) (funext fun a => Fin.ext ?_)
  match a with
  | ⟨0, _⟩ =>
    show win1_0.index t (0 : Fin 2) * 5000 + 1 * p.val = r.val
    rw [e0, hr]; omega
  | ⟨1, _⟩ =>
    show win1_0.index t (1 : Fin 2) * 64 + 1 * q.val = q.val
    rw [e1]; omega

/-- Window 1's block at point t holds rows 5000·t … 5000·t + 4999 of its array. -/
theorem iblk1_1_apply (c : Dev nD) (t : Fin cfg1.N) (p : Fin 5000) (q : Fin 64) (r : Fin 50000) (hr : r.val = 5000 * t.val + p.val) :
    (iblk1 V c 1 t : Vec Ideal S5000x64 .f32) (ix2 p q) = (V c main_arg0 : ArrN) (ix2 r q) := by
  obtain ⟨e0, e1⟩ := idx1_1 t
  unfold iblk1
  rw [View.read_apply]
  show (V c main_arg0 : ArrN) _ = _
  refine congrArg (V c main_arg0 : ArrN) (funext fun a => Fin.ext ?_)
  match a with
  | ⟨0, _⟩ =>
    show win1_1.index t (0 : Fin 2) * 5000 + 1 * p.val = r.val
    rw [e0, hr]; omega
  | ⟨1, _⟩ =>
    show win1_1.index t (1 : Fin 2) * 64 + 1 * q.val = q.val
    rw [e1]; omega

/-- Window 2 stages its whole array at every point. -/
theorem iblk1_2_eq (c : Dev nD) (t : Fin cfg1.N) :
    (iblk1 V c 2 t : Vec Ideal S128x128 .f32) = (V c main_arg12 : S128x128.Idx → EReal) := by
  obtain ⟨e0, e1⟩ := idx1_2 t
  funext y
  unfold iblk1
  rw [View.read_apply]
  show (V c main_arg12 : S128x128.Idx → EReal) _ = _
  refine congrArg (V c main_arg12 : S128x128.Idx → EReal) (funext fun a => Fin.ext ?_)
  match a with
  | ⟨0, _⟩ =>
    show win1_2.index t (0 : Fin 2) * 128 + 1 * (y 0).val = (y 0).val
    rw [e0]; omega
  | ⟨1, _⟩ =>
    show win1_2.index t (1 : Fin 2) * 128 + 1 * (y 1).val = (y 1).val
    rw [e1]; omega

/-- Window 3 stages its whole array at every point. -/
theorem iblk1_3_eq (c : Dev nD) (t : Fin cfg1.N) :
    (iblk1 V c 3 t : Vec Ideal S1x128 .f32) = (V c main_v22 : S1x128.Idx → EReal) := by
  obtain ⟨e0, e1⟩ := idx1_3 t
  funext y
  unfold iblk1
  rw [View.read_apply]
  show (V c main_v22 : S1x128.Idx → EReal) _ = _
  refine congrArg (V c main_v22 : S1x128.Idx → EReal) (funext fun a => Fin.ext ?_)
  match a with
  | ⟨0, _⟩ =>
    show win1_3.index t (0 : Fin 2) * 1 + 1 * (y 0).val = (y 0).val
    rw [e0]; omega
  | ⟨1, _⟩ =>
    show win1_3.index t (1 : Fin 2) * 128 + 1 * (y 1).val = (y 1).val
    rw [e1]; omega

/-- Window 4 stages its whole array at every point. -/
theorem iblk1_4_eq (c : Dev nD) (t : Fin cfg1.N) :
    (iblk1 V c 4 t : Vec Ideal S128x64 .f32) = (V c main_arg14 : S128x64.Idx → EReal) := by
  obtain ⟨e0, e1⟩ := idx1_4 t
  funext y
  unfold iblk1
  rw [View.read_apply]
  show (V c main_arg14 : S128x64.Idx → EReal) _ = _
  refine congrArg (V c main_arg14 : S128x64.Idx → EReal) (funext fun a => Fin.ext ?_)
  match a with
  | ⟨0, _⟩ =>
    show win1_4.index t (0 : Fin 2) * 128 + 1 * (y 0).val = (y 0).val
    rw [e0]; omega
  | ⟨1, _⟩ =>
    show win1_4.index t (1 : Fin 2) * 64 + 1 * (y 1).val = (y 1).val
    rw [e1]; omega

/-- Window 5 stages its whole array at every point. -/
theorem iblk1_5_eq (c : Dev nD) (t : Fin cfg1.N) :
    (iblk1 V c 5 t : Vec Ideal S1x64 .f32) = (V c main_v23 : S1x64.Idx → EReal) := by
  obtain ⟨e0, e1⟩ := idx1_5 t
  funext y
  unfold iblk1
  rw [View.read_apply]
  show (V c main_v23 : S1x64.Idx → EReal) _ = _
  refine congrArg (V c main_v23 : S1x64.Idx → EReal) (funext fun a => Fin.ext ?_)
  match a with
  | ⟨0, _⟩ =>
    show win1_5.index t (0 : Fin 2) * 1 + 1 * (y 0).val = (y 0).val
    rw [e0]; omega
  | ⟨1, _⟩ =>
    show win1_5.index t (1 : Fin 2) * 64 + 1 * (y 1).val = (y 1).val
    rw [e1]; omega

/-! ## The node kernel's output array -/

/-- The specification's node array of the arrays the node kernel finds at entry. -/
def nodeOf (c : Dev nD) : ArrN :=
  nodeOut (V c main_v21) (V c main_arg0)
    (V c main_arg12) (fun k => (V c main_v22 : S1x128.Idx → EReal) (ix2 (0 : Fin 1) k))
    (V c main_arg14) (fun v => (V c main_v23 : S1x64.Idx → EReal) (ix2 (0 : Fin 1) v))

/-- Point t writes back block t of the specification's node array. -/
theorem node_flushed (c : Dev nD) (t : Fin cfg1.N) :
    (dat1 V c).flushed 6 t = ((cfg1.win 6).blk t).view.read (Elt Ideal) (nodeOf V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S128x128) hz, View.ld_unit_zero (S := S128x64) hz,
    View.ld_unit_zero (S := S1x128) hz, View.ld_unit_zero (S := S1x64) hz]
  obtain ⟨e0, e1⟩ := idx1_6 t
  funext j
  have hj0 : (j 0).val < 5000 := (j 0).isLt
  have hj1 : (j 1).val < 64 := (j 1).isLt
  show k1_pay1 (iblk1 V c 0 t) (iblk1 V c 1 t) (iblk1 V c 2 t) (iblk1 V c 4 t) (iblk1 V c 3 t) (iblk1 V c 5 t) j
    = nodeOf V c (((cfg1.win 6).blk t).view.emb j)
  refine (node_payload _ _ _ _ _ _ j).trans ?_
  have hr : ((((cfg1.win 6).blk t).view.emb j) 0).val = 5000 * t.val + (j 0).val := by
    show win1_6.index t (0 : Fin 2) * 5000 + 1 * (j 0).val = _
    rw [e0]; omega
  have hu : (((cfg1.win 6).blk t).view.emb j) 1 = j 1 := Fin.ext (by
    show win1_6.index t (1 : Fin 2) * 64 + 1 * (j 1).val = (j 1).val
    rw [e1]; omega)
  unfold nodeOf nodeOut nodeEntry nodeRow
  rw [hu, iblk1_2_eq, iblk1_3_eq, iblk1_4_eq, iblk1_5_eq,
    show (fun q => (iblk1 V c 0 t : Vec Ideal S5000x64 .f32) (ix2 (j 0) q))
        = fun q => (V c main_v21 : ArrN) (ix2 ((((cfg1.win 6).blk t).view.emb j) 0) q)
      from funext fun q => iblk1_0_apply V c t (j 0) q _ hr,
    show (fun q => (iblk1 V c 1 t : Vec Ideal S5000x64 .f32) (ix2 (j 0) q))
        = fun q => (V c main_arg0 : ArrN) (ix2 ((((cfg1.win 6).blk t).view.emb j) 0) q)
      from funext fun q => iblk1_1_apply V c t (j 0) q _ hr]

/-- Every row of the node array lies in the block of the point its number divided by 5000 names. -/
theorem node_cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨e0, e1⟩ := idx1_6 ⟨(i 0).val / 5000, ht⟩
  refine ⟨⟨(i 0).val / 5000, ht⟩, flush1_6 _, ?_⟩
  show i ∈ ((View.whole main_v24).slice (win1_6.rect ⟨(i 0).val / 5000, ht⟩)).set
  rw [View.set_slice_whole, Rect.mem_set_unit]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    rw [e1]
    omega

/-- The node kernel's output array after its grid: the specification's node array of the entry contents. -/
theorem node_final (c : Dev nD) : (dat1 V c).arrAt 6 cfg1.N = nodeOf V c :=
  (dat1 V c).arrAt_eq_of_cover 6 (nodeOf V c) (fun t _ => node_flushed V c t) node_cover

end Cert.KernelIdeal.Hand

end
-- ==== Proof.KernelResult.lean ====
/-
  What the idealized kernel returns, as the specification's arrays of the launch arguments.

  Walking the fold of boundary contents: the first host stretch gathers the source and destination rows of the node
  features (negative indices first moved up by the number of nodes, as array indexing does) and turns each bias
  vector into a 1 × n row; the edge kernel's grid leaves the specification's edge array of those; the second host
  stretch scatter-adds that array's rows into a zero array at the destination indices and turns the last two bias
  vectors into rows; the node kernel's grid leaves the specification's node array of the aggregate and the node
  features.  No stretch writes an argument, so each is read back to the launch memory.
-/
import proofs.«147378_j91285234909505_1_alg».proof.Proof.KernelValue
import Idealize.ShloMosaic.Lib.StableHlo.Run

set_option maxRecDepth 16384

noncomputable section

namespace Cert.KernelIdeal.Hand

open Cert.KernelIdeal Cert.KernelIdeal.Gen Cert.KernelIdeal.Body
open Idealize.ShloMosaic Idealize.ShloMosaic.TcCoe Idealize.ShloMosaic.Tactic Idealize.ShloMosaic.StableHlo
open Idealize.SL.Sem
open Idealize.ShloMosaic.Pipeline (Dat)
open Idealize.ShloMosaic.ValueIdx Cert.RowPerceptron Cert.Mpnn

variable (m : (ℓ : Loc nD τ sig) → Buf (Elt Ideal) ℓ) (ρ : Dev nD → PrngReg)

/-- A vector of n numbers reshaped to a 1 × n row reads its entry k at (0, k). -/
theorem row_of_vec {α : Type} {n : ℕ} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) := by
  refine (shapeCast_addUnit_apply ![n] v h (ix2 (0 : Fin 1) k)).trans (congrArg v (funext fun a => ?_))
  match a with
  | ⟨0, _⟩ => rfl

/-! ## The arguments at the boundaries -/

theorem W1_arg0 (c : Dev nD) : W1 m ρ c (Proc.devRef .tc main_arg0) = m ((c : Thread nD τ).loc main_arg0) := by
  show StableHlo.after hostOps0 (W0 m ρ c) (Proc.devRef .tc main_arg0) = _
  after_results
  try rfl
theorem W1_arg1 (c : Dev nD) : W1 m ρ c (Proc.devRef .tc main_arg1) = m ((c : Thread nD τ).loc main_arg1) := by
  show StableHlo.after hostOps0 (W0 m ρ c) (Proc.devRef .tc main_arg1) = _
  after_results
  try rfl
theorem W1_arg2 (c : Dev nD) : W1 m ρ c (Proc.devRef .tc main_arg2) = m ((c : Thread nD τ).loc main_arg2) := by
  show StableHlo.after hostOps0 (W0 m ρ c) (Proc.devRef .tc main_arg2) = _
  after_results
  try rfl
theorem W1_arg3 (c : Dev nD) : W1 m ρ c (Proc.devRef .tc main_arg3) = m ((c : Thread nD τ).loc main_arg3) := by
  show StableHlo.after hostOps0 (W0 m ρ c) (Proc.devRef .tc main_arg3) = _
  after_results
  try rfl
theorem W1_arg4 (c : Dev nD) : W1 m ρ c (Proc.devRef .tc main_arg4) = m ((c : Thread nD τ).loc main_arg4) := by
  show StableHlo.after hostOps0 (W0 m ρ c) (Proc.devRef .tc main_arg4) = _
  after_results
  try rfl
theorem W1_arg5 (c : Dev nD) : W1 m ρ c (Proc.devRef .tc main_arg5) = m ((c : Thread nD τ).loc main_arg5) := by
  show StableHlo.after hostOps0 (W0 m ρ c) (Proc.devRef .tc main_arg5) = _
  after_results
  try rfl
theorem W1_arg6 (c : Dev nD) : W1 m ρ c (Proc.devRef .tc main_arg6) = m ((c : Thread nD τ).loc main_arg6) := by
  show StableHlo.after hostOps0 (W0 m ρ c) (Proc.devRef .tc main_arg6) = _
  after_results
  try rfl
theorem W1_arg7 (c : Dev nD) : W1 m ρ c (Proc.devRef .tc main_arg7) = m ((c : Thread nD τ).loc main_arg7) := by
  show StableHlo.after hostOps0 (W0 m ρ c) (Proc.devRef .tc main_arg7) = _
  after_results
  try rfl
theorem W1_arg8 (c : Dev nD) : W1 m ρ c (Proc.devRef .tc main_arg8) = m ((c : Thread nD τ).loc main_arg8) := by
  show StableHlo.after hostOps0 (W0 m ρ c) (Proc.devRef .tc main_arg8) = _
  after_results
  try rfl
theorem W1_arg9 (c : Dev nD) : W1 m ρ c (Proc.devRef .tc main_arg9) = m ((c : Thread nD τ).loc main_arg9) := by
  show StableHlo.after hostOps0 (W0 m ρ c) (Proc.devRef .tc main_arg9) = _
  after_results
  try rfl
theorem W1_arg10 (c : Dev nD) : W1 m ρ c (Proc.devRef .tc main_arg10) = m ((c : Thread nD τ).loc main_arg10) := by
  show StableHlo.after hostOps0 (W0 m ρ c) (Proc.devRef .tc main_arg10) = _
  after_results
  try rfl
theorem W1_arg11 (c : Dev nD) : W1 m ρ c (Proc.devRef .tc main_arg11) = m ((c : Thread nD τ).loc main_arg11) := by
  show StableHlo.after hostOps0 (W0 m ρ c) (Proc.devRef .tc main_arg11) = _
  after_results
  try rfl
theorem W1_arg12 (c : Dev nD) : W1 m ρ c (Proc.devRef .tc main_arg12) = m ((c : Thread nD τ).loc main_arg12) := by
  show StableHlo.after hostOps0 (W0 m ρ c) (Proc.devRef .tc main_arg12) = _
  after_results
  try rfl
theorem W1_arg13 (c : Dev nD) : W1 m ρ c (Proc.devRef .tc main_arg13) = m ((c : Thread nD τ).loc main_arg13) := by
  show StableHlo.after hostOps0 (W0 m ρ c) (Proc.devRef .tc main_arg13) = _
  after_results
  try rfl
theorem W1_arg14 (c : Dev nD) : W1 m ρ c (Proc.devRef .tc main_arg14) = m ((c : Thread nD τ).loc main_arg14) := by
  show StableHlo.after hostOps0 (W0 m ρ c) (Proc.devRef .tc main_arg14) = _
  after_results
  try rfl
theorem W1_arg15 (c : Dev nD) : W1 m ρ c (Proc.devRef .tc main_arg15) = m ((c : Thread nD τ).loc main_arg15) := by
  show StableHlo.after hostOps0 (W0 m ρ c) (Proc.devRef .tc main_arg15) = _
  after_results
  try rfl

theorem W2_arg0 (c : Dev nD) : W2 m ρ c (Proc.devRef .tc main_arg0) = m ((c : Thread nD τ).loc main_arg0) :=
  (W2_of_ne m ρ c main_arg0 (by decide)).trans (W1_arg0 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W2_arg15 (c : Dev nD) : W2 m ρ c (Proc.devRef .tc main_arg15) = m ((c : Thread nD τ).loc main_arg15) :=
  (W2_of_ne m ρ c main_arg15 (by decide)).trans (W1_arg15 m ρ c)

theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = _
  after_results
  try rfl
theorem W3_arg12 (c : Dev nD) : W3 m ρ c (Proc.devRef .tc main_arg12) = m ((c : Thread nD τ).loc main_arg12) := by
  refine Eq.trans ?_ (W2_arg12 m ρ c)
  show StableHlo.after hostOps1 (W2 m ρ c) (Proc.devRef .tc main_arg12) = _
  after_results
  try rfl
theorem W3_arg14 (c : Dev nD) : W3 m ρ c (Proc.devRef .tc main_arg14) = m ((c : Thread nD τ).loc main_arg14) := by
  refine Eq.trans ?_ (W2_arg14 m ρ c)
  show StableHlo.after hostOps1 (W2 m ρ c) (Proc.devRef .tc main_arg14) = _
  after_results
  try rfl

/-! ## What the first host stretch leaves for the edge kernel -/

theorem V1_v6 (c : Dev nD) : (V1 m ρ c main_v6 : ArrE) = (Host.gather gather_S50000x64_S800000x1_S800000x64_1_0_n_n_0_1_164 (m ((c : Thread nD τ).loc main_arg0)) (broadcastInDim S800000x1 ![0] bcast_S800000_S800000x1_0 (select (cmpi .slt (m ((c : Thread nD τ).loc main_arg2)) (broadcastInDim S800000 ![] bcast_S_S800000 (constantI S_ 32 0#32))) (addi (m ((c : Thread nD τ).loc main_arg2)) (broadcastInDim S800000 ![] bcast_S_S800000 (constantI S_ 32 50000#32))) (m ((c : Thread nD τ).loc main_arg2))))) := by
  show StableHlo.after hostOps0 (W0 m ρ c) (Proc.devRef .tc main_v6) = _
  after_results
  try rfl
theorem V1_v13 (c : Dev nD) : (V1 m ρ c main_v13 : ArrE) = (Host.gather gather_S50000x64_S800000x1_S800000x64_1_0_n_n_0_1_164 (m ((c : Thread nD τ).loc main_arg0)) (broadcastInDim S800000x1 ![0] bcast_S800000_S800000x1_0 (select (cmpi .slt (m ((c : Thread nD τ).loc main_arg3)) (broadcastInDim S800000 ![] bcast_S_S800000 (constantI S_ 32 0#32))) (addi (m ((c : Thread nD τ).loc main_arg3)) (broadcastInDim S800000 ![] bcast_S_S800000 (constantI S_ 32 50000#32))) (m ((c : Thread nD τ).loc main_arg3))))) := by
  show StableHlo.after hostOps0 (W0 m ρ c) (Proc.devRef .tc main_v13) = _
  after_results
  try rfl
theorem V1_v14 (c : Dev nD) : (V1 m ρ c main_v14 : S1x128.Idx → EReal) = shapeCast S1x128 (m ((c : Thread nD τ).loc main_arg5)) shapeCasts_S128_S1x128 := by
  show StableHlo.after hostOps0 (W0 m ρ c) (Proc.devRef .tc main_v14) = _
  after_results
  try rfl
theorem V1_v15 (c : Dev nD) : (V1 m ρ c main_v15 : S1x64.Idx → EReal) = shapeCast S1x64 (m ((c : Thread nD τ).loc main_arg7)) shapeCasts_S64_S1x64 := by
  show StableHlo.after hostOps0 (W0 m ρ c) (Proc.devRef .tc main_v15) = _
  after_results
  try rfl
theorem V1_v16 (c : Dev nD) : (V1 m ρ c main_v16 : S1x128.Idx → EReal) = shapeCast S1x128 (m ((c : Thread nD τ).loc main_arg9)) shapeCasts_S128_S1x128 := by
  show StableHlo.after hostOps0 (W0 m ρ c) (Proc.devRef .tc main_v16) = _
  after_results
  try rfl
theorem V1_v17 (c : Dev nD) : (V1 m ρ c main_v17 : S1x64.Idx → EReal) = shapeCast S1x64 (m ((c : Thread nD τ).loc main_arg11)) shapeCasts_S64_S1x64 := by
  show StableHlo.after hostOps0 (W0 m ρ c) (Proc.devRef .tc main_v17) = _
  after_results
  try rfl

/-! ## The updated edge features -/

/-- The edge result: the specification's edge array of the launch arguments. -/
def edgeRes (c : Dev nD) : ArrE :=
  edgeMsg (Host.gather gather_S50000x64_S800000x1_S800000x64_1_0_n_n_0_1_164 (m ((c : Thread nD τ).loc main_arg0)) (broadcastInDim S800000x1 ![0] bcast_S800000_S800000x1_0 (select (cmpi .slt (m ((c : Thread nD τ).loc main_arg2)) (broadcastInDim S800000 ![] bcast_S_S800000 (constantI S_ 32 0#32))) (addi (m ((c : Thread nD τ).loc main_arg2)) (broadcastInDim S800000 ![] bcast_S_S800000 (constantI S_ 32 50000#32))) (m ((c : Thread nD τ).loc main_arg2))))) (Host.gather gather_S50000x64_S800000x1_S800000x64_1_0_n_n_0_1_164 (m ((c : Thread nD τ).loc main_arg0)) (broadcastInDim S800000x1 ![0] bcast_S800000_S800000x1_0 (select (cmpi .slt (m ((c : Thread nD τ).loc main_arg3)) (broadcastInDim S800000 ![] bcast_S_S800000 (constantI S_ 32 0#32))) (addi (m ((c : Thread nD τ).loc main_arg3)) (broadcastInDim S800000 ![] bcast_S_S800000 (constantI S_ 32 50000#32))) (m ((c : Thread nD τ).loc main_arg3))))) (m ((c : Thread nD τ).loc main_arg1))
      (m ((c : Thread nD τ).loc main_arg4)) (fun k => ((m ((c : Thread nD τ).loc main_arg5)) : S128.Idx → EReal) (ix1 k)) (m ((c : Thread nD τ).loc main_arg6)) (fun v => ((m ((c : Thread nD τ).loc main_arg7)) : S64.Idx → EReal) (ix1 v))
      (m ((c : Thread nD τ).loc main_arg8)) (fun k => ((m ((c : Thread nD τ).loc main_arg9)) : S128.Idx → EReal) (ix1 k)) (m ((c : Thread nD τ).loc main_arg10)) (fun v => ((m ((c : Thread nD τ).loc main_arg11)) : S64.Idx → EReal) (ix1 v))

theorem edge_entry (c : Dev nD) : edgeOf (V1 m ρ) c = edgeRes m c := by
  unfold edgeOf edgeRes
  rw [V1_v6, V1_v13, V1_v14, V1_v15, V1_v16, V1_v17]
  simp only [row_of_vec]
  rw [show (V1 m ρ c main_arg1 : ArrE) = m ((c : Thread nD τ).loc main_arg1) from W1_arg1 m ρ c,
    show (V1 m ρ c main_arg4 : S192x128.Idx → EReal) = m ((c : Thread nD τ).loc main_arg4) from W1_arg4 m ρ c,
    show (V1 m ρ c main_arg6 : S128x64.Idx → EReal) = m ((c : Thread nD τ).loc main_arg6) from W1_arg6 m ρ c,
    show (V1 m ρ c main_arg8 : S192x128.Idx → EReal) = m ((c : Thread nD τ).loc main_arg8) from W1_arg8 m ρ c,
    show (V1 m ρ c main_arg10 : S128x64.Idx → EReal) = m ((c : Thread nD τ).loc main_arg10) from W1_arg10 m ρ c]

/-- After the edge kernel's grid its output buffer holds the edge result. -/
theorem W2_v18 (c : Dev nD) : W2 m ρ c (Proc.devRef .tc main_v18) = edgeRes m c :=
  ((W2_arr m ρ c 11).trans (edge_final (V1 m ρ) c)).trans (edge_entry m ρ c)

/-- No later stretch writes it. -/
theorem W4_v18 (c : Dev nD) : W4 m ρ c (Proc.devRef .tc main_v18) = edgeRes m c := by
  refine (W4_of_ne m ρ c main_v18 (by decide)).trans (Eq.trans ?_ (W2_v18 m ρ c))
  show StableHlo.after hostOps1 (W2 m ρ c) (Proc.devRef .tc main_v18) = _
  after_results
  try rfl

/-! ## The updated node features -/

theorem V3_v21 (c : Dev nD) : (V3 m ρ c main_v21 : ArrN) = (Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 (m ((c : Thread nD τ).loc main_arg3))) (edgeRes m c)) := by
  rw [← W2_arg3 m ρ c, ← W2_v18 m ρ c]
  show StableHlo.after hostOps1 (W2 m ρ c) (Proc.devRef .tc main_v21) = _
  after_results
  try rfl
theorem V3_v22 (c : Dev nD) : (V3 m ρ c main_v22 : S1x128.Idx → EReal) = shapeCast S1x128 (m ((c : Thread nD τ).loc main_arg13)) shapeCasts_S128_S1x128 := by
  rw [← W2_arg13 m ρ c]
  show StableHlo.after hostOps1 (W2 m ρ c) (Proc.devRef .tc main_v22) = _
  after_results
  try rfl
theorem V3_v23 (c : Dev nD) : (V3 m ρ c main_v23 : S1x64.Idx → EReal) = shapeCast S1x64 (m ((c : Thread nD τ).loc main_arg15)) shapeCasts_S64_S1x64 := by
  rw [← W2_arg15 m ρ c]
  show StableHlo.after hostOps1 (W2 m ρ c) (Proc.devRef .tc main_v23) = _
  after_results
  try rfl

/-- The node result: the specification's node array of the aggregated edge result and the launch arguments. -/
def nodeRes (c : Dev nD) : ArrN :=
  nodeOut (Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 (m ((c : Thread nD τ).loc main_arg3))) (edgeRes m c)) (m ((c : Thread nD τ).loc main_arg0))
    (m ((c : Thread nD τ).loc main_arg12)) (fun k => ((m ((c : Thread nD τ).loc main_arg13)) : S128.Idx → EReal) (ix1 k)) (m ((c : Thread nD τ).loc main_arg14)) (fun v => ((m ((c : Thread nD τ).loc main_arg15)) : S64.Idx → EReal) (ix1 v))

theorem node_entry (c : Dev nD) : nodeOf (V3 m ρ) c = nodeRes m c := by
  unfold nodeOf nodeRes
  rw [V3_v21, V3_v22, V3_v23]
  simp only [row_of_vec]
  rw [show (V3 m ρ c main_arg0 : ArrN) = m ((c : Thread nD τ).loc main_arg0) from W3_arg0 m ρ c,
    show (V3 m ρ c main_arg12 : S128x128.Idx → EReal) = m ((c : Thread nD τ).loc main_arg12) from W3_arg12 m ρ c,
    show (V3 m ρ c main_arg14 : S128x64.Idx → EReal) = m ((c : Thread nD τ).loc main_arg14) from W3_arg14 m ρ c]

/-- After the node kernel's grid its output buffer holds the node result. -/
theorem W4_v24 (c : Dev nD) : W4 m ρ c (Proc.devRef .tc main_v24) = nodeRes m c :=
  ((W4_arr m ρ c 6).trans (node_final (V3 m ρ) c)).trans (node_entry m ρ c)

/-! ## The run, read -/

/-- Every weakly fair execution of the idealized kernel terminates, nothing faulting, with the two results at the
    specification's arrays of the launch arguments and the arguments unchanged. -/
theorem run : θ_run defs (onTc (τ := τ) (main (F := Ideal))) ⟨m, fun _ => 0, ρ⟩ (fun r => ∀ c : Dev nD,
      r.2.mem ((c.tc : Thread nD τ).loc main_v24) = nodeRes m c
      ∧ r.2.mem ((c.tc : Thread nD τ).loc main_v18) = edgeRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun s h c =>
    ⟨(h c _ (mem_uc main_v24 (by decide))).trans (W4_v24 m ρ c),
     (h c _ (mem_uc main_v18 (by decide))).trans (W4_v18 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c)⟩)
    (run_all m ρ)

end Cert.KernelIdeal.Hand

end
-- ==== Proof.lean ====
/-
  One round of message passing on a graph of 50000 nodes and 800000 edges: a Pallas implementation (an edge kernel over
  200 blocks of 4000 edges, a node kernel over 10 blocks of 5000 nodes, the gathers and the scatter-add between them on
  the host) against its jnp reference.

  On the extended reals both compute the same two arrays.  The updated edge features are, edge by edge and column by
  column, the logistic function of a gate perceptron times a message perceptron, both reading the edge's row
  [ nf[src] | nf[dst] | ef ].  The kernel narrows the operands of each product to a 16-bit format (the identity on the
  extended reals), forms each product into a zero accumulator (the plain finite sum), keeps the biases as 1 × n rows, and
  uses one logistic operation; the reference forms general dot products (the same sum), takes each bias from a vector,
  and spells the logistic function as 1 / (1 + exp (−·)), which is its definition.  The updated node features are the
  node perceptron of  [ agg | nf ],  agg the scatter-add of the updated edge features at the destination indices: the
  same host operation on both sides applied to equal arrays.  Nothing here needs the inputs finite: the two sides are
  the same expression entry by entry, with no term moved across a sum.

  The kernel's blocks tile its arrays, so what each grid point writes back is the block of one whole-array function
  (Proof/KernelValue.lean); the host stretches between the grids are read back operation by operation
  (Proof/KernelResult.lean); the reference's run is the generated one, its two terms read entry by entry
  (Proof/RefValue.lean).  The sanctioned idealization rewrote nothing, so it has nothing to preserve.
-/
import proofs.«147378_j91285234909505_1_alg».proof.Defs
import proofs.«147378_j91285234909505_1_alg».proof.Proof.Gen.Kernel
import proofs.«147378_j91285234909505_1_alg».proof.Proof.Gen.Kernel.Frame
import proofs.«147378_j91285234909505_1_alg».proof.Proof.Gen.KernelIdeal
import proofs.«147378_j91285234909505_1_alg».proof.Proof.Gen.KernelIdeal.Frame
import proofs.«147378_j91285234909505_1_alg».proof.Proof.Gen.ReferenceIdeal
import proofs.«147378_j91285234909505_1_alg».proof.Proof.Gen.Pre_finite_inputs
import proofs.«147378_j91285234909505_1_alg».proof.Proof.Gen.ReferenceIdeal.Run
import proofs.«147378_j91285234909505_1_alg».proof.Proof.RefValue
import proofs.«147378_j91285234909505_1_alg».proof.Proof.KernelResult
import Idealize.ShloMosaic.Adequacy
import Idealize.ShloMosaic.Init

set_option maxRecDepth 16384

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the specification's node array and edge array
    of those arguments. -/
theorem algebraic : Cert.algebraic_KernelIdeal_ReferenceIdeal := by
  intro m ρ m' ρ' _ hagree
  refine ⟨fun c => Cert.KernelIdeal.Hand.nodeRes m c, fun c => Cert.KernelIdeal.Hand.edgeRes m c,
    Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15⟩ := hagree c
  refine ⟨(h c).1.trans ?_, (h c).2.1.trans ?_, (h c).2.2⟩
  · unfold Cert.ReferenceIdeal.Value.res_main_v52
    rw [a0, a1, a2, a3, a4, a5, a6, a7, a8, a9, a10, a11, a12, a13, a14, a15]
    refine (Cert.ReferenceIdeal.RefValue.ref_node _ _ _ _ _ _).trans ?_
    rw [Cert.ReferenceIdeal.RefValue.ref_edge]
    rfl
  · rw [a0, a1, a2, a3, a4, a5, a6, a7, a8, a9, a10, a11]
    exact (Cert.ReferenceIdeal.RefValue.ref_edge _ _ _ _ _ _ _ _ _ _ _).trans rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
